-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v3_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096x2 : Shape := ⟨3, ![4096, 4096, 2]⟩
abbrev S4096x70 : Shape := ⟨2, ![4096, 70]⟩
abbrev S_ : Shape := ⟨0, ![]⟩

class Facts : Prop where
  bcast_S_S4096x4096x2 : S_.BroadcastsInDim S4096x4096x2 (![] : Fin 0 → Fin S4096x4096x2.rank)
  reducesTo_S4096x4096x2_S_d0_1_2 : S4096x4096x2.ReducesTo [0, 1, 2] S_
  h_S_ : 0 < S_.numel
  bcast_S_S4096x70 : S_.BroadcastsInDim S4096x70 (![] : Fin 0 → Fin S4096x70.rank)
  reducesTo_S4096x70_S_d0_1 : S4096x70.ReducesTo [0, 1] S_

variable [Facts]

def fn {F : FTy → Type} [FloatOps F] (main_arg0 : FVec F S4096x4096x2 .f32) (main_arg1 : FVec F S4096x70 .f32) : IVec S_ 1 :=
  let main_v0 : FVec F S4096x4096x2 .f32 := Host.absf main_arg0
  let main_cst : FVec F S_ .f32 := constant S_ .f32 0x7F800000#32
  let main_v1 : FVec F S4096x4096x2 .f32 := broadcastInDim S4096x4096x2 ![] bcast_S_S4096x4096x2 main_cst
  let main_v2 : IVec S4096x4096x2 1 := cmpf .olt main_v0 main_v1
  let main_c : IVec S_ 1 := constantI S_ 1 1#1
  let main_v3 : IVec S_ 1 := (fun x v => Host.reduce IntOp.andi x v reducesTo_S4096x4096x2_S_d0_1_2 h_S_) main_v2 main_c
  let main_v4 : FVec F S4096x70 .f32 := Host.absf main_arg1
  let main_cst_0 : FVec F S_ .f32 := constant S_ .f32 0x7F800000#32
  let main_v5 : FVec F S4096x70 .f32 := broadcastInDim S4096x70 ![] bcast_S_S4096x70 main_cst_0
  let main_v6 : IVec S4096x70 1 := cmpf .olt main_v4 main_v5
  let main_c_1 : IVec S_ 1 := constantI S_ 1 1#1
  let main_v7 : IVec S_ 1 := (fun x v => Host.reduce IntOp.andi x v reducesTo_S4096x70_S_d0_1 h_S_) main_v6 main_c_1
  let main_v8 : IVec S_ 1 := andi main_v3 main_v7
  main_v8
-- ==== Kernel.lean ====
abbrev S4096x4096x2 : Shape := ⟨3, ![4096, 4096, 2]⟩
abbrev S4096x70 : Shape := ⟨2, ![4096, 70]⟩
abbrev S4096x8192 : Shape := ⟨2, ![4096, 8192]⟩
abbrev S4096x2x70 : Shape := ⟨3, ![4096, 2, 70]⟩
abbrev S8192x70 : Shape := ⟨2, ![8192, 70]⟩
abbrev S2x8192x70 : Shape := ⟨3, ![2, 8192, 70]⟩
abbrev S1024x2048 : Shape := ⟨2, ![1024, 2048]⟩
abbrev S1024x70 : Shape := ⟨2, ![1024, 70]⟩
abbrev S1x8192x70 : Shape := ⟨3, ![1, 8192, 70]⟩
abbrev S2048x70 : Shape := ⟨2, ![2048, 70]⟩
abbrev S1x2048x70 : Shape := ⟨3, ![1, 2048, 70]⟩
abbrev S_ : Shape := ⟨0, ![]⟩

abbrev nBuf : Space → Nat
  | .hbm => 12
  | .vmem => 7
  | .smem => 0
  | _ => 0

abbrev bufTy : (tb : Table) → Fin (tcTables nBuf tb) → BufTy
  | .hbm, ⟨0, _⟩ => ⟨S4096x4096x2, .f32⟩
  | .hbm, ⟨1, _⟩ => ⟨S4096x70, .f32⟩
  | .hbm, ⟨2, _⟩ => ⟨S4096x8192, .f32⟩
  | .hbm, ⟨3, _⟩ => ⟨S4096x2x70, .f32⟩
  | .hbm, ⟨4, _⟩ => ⟨S8192x70, .f32⟩
  | .hbm, ⟨5, _⟩ => ⟨S4096x70, .f32⟩
  | .hbm, ⟨6, _⟩ => ⟨S2x8192x70, .f32⟩
  | .hbm, ⟨7, _⟩ => ⟨S_, .f32⟩
  | .hbm, ⟨8, _⟩ => ⟨S8192x70, .f32⟩
  | .hbm, ⟨9, _⟩ => ⟨S4096x2x70, .f32⟩
  | .hbm, ⟨10, _⟩ => ⟨S_, .f32⟩
  | .hbm, ⟨11, _⟩ => ⟨S4096x70, .f32⟩
  | .local _ .vmem, ⟨0, _⟩ => ⟨S1024x2048, .f32⟩
  | .local _ .vmem, ⟨1, _⟩ => ⟨S1024x2048, .f32⟩
  | .local _ .vmem, ⟨2, _⟩ => ⟨S4096x70, .f32⟩
  | .local _ .vmem, ⟨3, _⟩ => ⟨S8192x70, .f32⟩
  | .local _ .vmem, ⟨4, _⟩ => ⟨S1024x70, .f32⟩
  | .local _ .vmem, ⟨5, _⟩ => ⟨S1024x70, .f32⟩
  | .local _ .vmem, ⟨6, _⟩ => ⟨S1x8192x70, .f32⟩
  | _, _ => ⟨S4096x4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨3, ![2, 2, 4], ![false, false, false]⟩

def k0_mult1 (i : grid0.Coords) : BitVec 32 :=
  let arg0 : BitVec 32 := BitVec.ofNat 32 (i 0).val
  let c2_i32 : BitVec 32 := 2#32
  let v8 : BitVec 32 := Scalar.muli arg0 c2_i32
  let arg1 : BitVec 32 := BitVec.ofNat 32 (i 1).val
  let v9 : BitVec 32 := Scalar.addi v8 arg1
  let c1024_i32 : BitVec 32 := 1024#32
  let v10 : BitVec 32 := Scalar.muli v9 c1024_i32
  v10
def k0_mult2 (i : grid0.Coords) : BitVec 32 :=
  let arg2 : BitVec 32 := BitVec.ofNat 32 (i 2).val
  let c2048_i32 : BitVec 32 := 2048#32
  let v12 : BitVec 32 := Scalar.muli arg2 c2048_i32
  v12
def k0_off1 (i : grid0.Coords) : Fin 2 → Nat :=
  let arg0 : BitVec 32 := BitVec.ofNat 32 (i 0).val
  let c2_i32 : BitVec 32 := 2#32
  let v8 : BitVec 32 := Scalar.muli arg0 c2_i32
  let arg1 : BitVec 32 := BitVec.ofNat 32 (i 1).val
  let v9 : BitVec 32 := Scalar.addi v8 arg1
  let c1024_i32 : BitVec 32 := 1024#32
  let v10 : BitVec 32 := Scalar.muli v9 c1024_i32
  let v11 : BitVec 32 := v10
  let v17 : Index := Scalar.indexCast v11
  let c0_5 : Index := 0#32
  ![v17.toNat, 0]
def k0_off2 (i : grid0.Coords) : Fin 2 → Nat :=
  let arg2 : BitVec 32 := BitVec.ofNat 32 (i 2).val
  let c2048_i32 : BitVec 32 := 2048#32
  let v12 : BitVec 32 := Scalar.muli arg2 c2048_i32
  let v13 : BitVec 32 := v12
  let v20 : Index := Scalar.indexCast v13
  let c0_6 : Index := 0#32
  ![v20.toNat, 0]
def k0_off3 (i : grid0.Coords) : Fin 3 → Nat :=
  let c0_12 : Index := 0#32
  let arg2 : BitVec 32 := BitVec.ofNat 32 (i 2).val
  let c2048_i32 : BitVec 32 := 2048#32
  let v12 : BitVec 32 := Scalar.muli arg2 c2048_i32
  let v13 : BitVec 32 := v12
  let v30 : Index := Scalar.indexCast v13
  let c0_13 : Index := 0#32
  ![0, v30.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![v1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S4096x70 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S8192x70 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x70 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x8192x70 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]

class Facts₀ : Prop where
  shapeCasts_S4096x4096x2_S4096x8192 : S4096x4096x2.ShapeCasts S4096x8192
  bcast_S4096x70_S4096x2x70_0_2 : S4096x70.BroadcastsInDim S4096x2x70 (![0, 2] : Fin 2 → Fin S4096x2x70.rank)
  shapeCasts_S4096x2x70_S8192x70 : S4096x2x70.ShapeCasts S8192x70
  inb_S1024x70_S1024x70_0_0 : ∀ a, (![0, 0] : Fin 2 → Nat) a + S1024x70.size a ≤ S1024x70.size a
  h_S1024x70 : 0 < S1024x70.numel
  inb_S1x8192x70_S1x8192x70_0_0_0 : ∀ a, (![0, 0, 0] : Fin 3 → Nat) a + S1x8192x70.size a ≤ S1x8192x70.size a
  h_S1x8192x70 : 0 < S1x8192x70.numel
  shapeCasts_S1x8192x70_S8192x70 : S1x8192x70.ShapeCasts S8192x70
  shapeCasts_S8192x70_S1x8192x70 : S8192x70.ShapeCasts S1x8192x70
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  bitsLt_bf16_f32 : FTy.bits .bf16 < FTy.bits .f32
  h_S2048x70 : 0 < S2048x70.numel
  shapeCasts_S2048x70_S2048x70 : S2048x70.ShapeCasts S2048x70
  shapeCasts_S1024x70_S1024x70 : S1024x70.ShapeCasts S1024x70
  h_S1x2048x70 : 0 < S1x2048x70.numel
  shapeCasts_S1x2048x70_S2048x70 : S1x2048x70.ShapeCasts S2048x70
  shapeCasts_S2048x70_S1x2048x70 : S2048x70.ShapeCasts S1x2048x70
  reducesTo_S2x8192x70_S8192x70_d0 : S2x8192x70.ReducesTo [0] S8192x70
  h_S_ : 0 < S_.numel
  shapeCasts_S8192x70_S4096x2x70 : S8192x70.ShapeCasts S4096x2x70
  reducesTo_S4096x2x70_S4096x70_d1 : S4096x2x70.ReducesTo [1] S4096x70
  dot_S1024x2048_S2048x70_S1024x70_1_0_0_1_n_n_wf : DotDims.WF S1024x2048 S2048x70 S1024x70 [1] [0] [0] [1] [] []
  dot_S1024x2048_S1024x70_S2048x70_0_0_1_1_n_n_wf : DotDims.WF S1024x2048 S1024x70 S2048x70 [0] [0] [1] [1] [] []
  hrank0 : 0 < grid0.rank
  k0_mult1_dvd : ∀ i : grid0.Coords, 1024 ∣ (k0_mult1 i).toNat
  k0_mult2_dvd : ∀ i : grid0.Coords, 2048 ∣ (k0_mult2 i).toNat
  k0_off1_inb : ∀ i : grid0.Coords, ∀ a, (k0_off1 i) a + S1024x70.size a ≤ S4096x70.size a
  k0_off2_inb : ∀ i : grid0.Coords, ∀ a, (k0_off2 i) a + S2048x70.size a ≤ S8192x70.size a
  k0_off3_inb : ∀ i : grid0.Coords, ∀ a, (k0_off3 i) a + S1x2048x70.size a ≤ S1x8192x70.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x8192.size a
  hwx0_0 : ∀ i : grid0.Coords, EltTy.bits .f32 = 32 ∨ (Rect.block (s := S4096x8192) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x70.size a ≤ S4096x70.size a
  hwx0_1 : ∀ i : grid0.Coords, EltTy.bits .f32 = 32 ∨ (Rect.block (s := S4096x70) S4096x70.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x70.size a ≤ S8192x70.size a
  hwx0_2 : ∀ i : grid0.Coords, EltTy.bits .f32 = 32 ∨ (Rect.block (s := S8192x70) S8192x70.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x70.size a ≤ S4096x70.size a
  hwx0_3 : ∀ i : grid0.Coords, EltTy.bits .f32 = 32 ∨ (Rect.block (s := S4096x70) S1024x70.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8192x70.size a ≤ S2x8192x70.size a
  hwx0_4 : ∀ i : grid0.Coords, EltTy.bits .f32 = 32 ∨ (Rect.block (s := S2x8192x70) S1x8192x70.size (cc0_transform_4 i) (hinb0_4 i)).WholeWords (EltTy.packing .f32)

variable [Facts₀]

def dot_S1024x2048_S2048x70_S1024x70_1_0_0_1_n_n : DotDims S1024x2048 S2048x70 S1024x70 where
  lhsContracting := [1]
  rhsContracting := [0]
  lhsNonContracting := [0]
  rhsNonContracting := [1]
  lhsBatch := []
  rhsBatch := []
  wf := dot_S1024x2048_S2048x70_S1024x70_1_0_0_1_n_n_wf
def dot_S1024x2048_S1024x70_S2048x70_0_0_1_1_n_n : DotDims S1024x2048 S1024x70 S2048x70 where
  lhsContracting := [0]
  rhsContracting := [0]
  lhsNonContracting := [1]
  rhsNonContracting := [1]
  lhsBatch := []
  rhsBatch := []
  wf := dot_S1024x2048_S1024x70_S2048x70_0_0_1_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x70.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8192x70.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1024x70.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x8192x70.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x4096x2 : Shape := ⟨3, ![4096, 4096, 2]⟩
abbrev S4096x70 : Shape := ⟨2, ![4096, 70]⟩
abbrev S_ : Shape := ⟨0, ![]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096x2, .f32⟩
  | .hbm, ⟨1, _⟩ => ⟨S4096x70, .f32⟩
  | .hbm, ⟨2, _⟩ => ⟨S_, .f32⟩
  | .hbm, ⟨3, _⟩ => ⟨S4096x4096, .f32⟩
  | .hbm, ⟨4, _⟩ => ⟨S4096x70, .f32⟩
  | .hbm, ⟨5, _⟩ => ⟨S4096x70, .f32⟩
  | _, _ => ⟨S4096x4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  reducesTo_S4096x4096x2_S4096x4096_d2 : S4096x4096x2.ReducesTo [2] S4096x4096
  h_S_ : 0 < S_.numel
  dot_S4096x4096_S4096x70_S4096x70_0_0_1_1_n_n_wf : DotDims.WF S4096x4096 S4096x70 S4096x70 [0] [0] [1] [1] [] []
  dot_S4096x4096_S4096x70_S4096x70_1_0_0_1_n_n_wf : DotDims.WF S4096x4096 S4096x70 S4096x70 [1] [0] [0] [1] [] []

variable [Facts₀]

def dot_S4096x4096_S4096x70_S4096x70_0_0_1_1_n_n : DotDims S4096x4096 S4096x70 S4096x70 where
  lhsContracting := [0]
  rhsContracting := [0]
  lhsNonContracting := [1]
  rhsNonContracting := [1]
  lhsBatch := []
  rhsBatch := []
  wf := dot_S4096x4096_S4096x70_S4096x70_0_0_1_1_n_n_wf
def dot_S4096x4096_S4096x70_S4096x70_1_0_0_1_n_n : DotDims S4096x4096 S4096x70 S4096x70 where
  lhsContracting := [1]
  rhsContracting := [0]
  lhsNonContracting := [0]
  rhsNonContracting := [1]
  lhsBatch := []
  rhsBatch := []
  wf := dot_S4096x4096_S4096x70_S4096x70_1_0_0_1_n_n_wf

class Facts : Prop extends Facts₀ where

variable [Facts]
-- ==== Proof.StepBits.lean ====
/-
  What one grid point of the kernel does to its two accumulators, as functions of the blocks it reads, and how a
  staging buffer reads back after the point's stores. Stated for any float instance.
-/
import proofs.«170085_j76536317215120_2_alg».proof.Proof.Gen.Kernel.Frame
import proofs.«170085_j76536317215120_2_alg».proof.Proof.Gen.Kernel.Skeleton
import Idealize.ShloMosaic.Lib.WritesUnit
import Idealize.ShloMosaic.Lib.Pipeline.Value
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two conditions of the body, over the grid

A grid point is (core, ii, c), numbered t = 8·core + 4·ii + c. The row-block accumulator is zeroed when c = 0, the
per-core column accumulator when ii = 0 and c = 0. -/

/-- "c = 0", as the body's scalar chain computes it. -/
abbrev cond0 (i : grid0.Coords) : Prop := (Scalar.cmpi .ne (Scalar.extui (Scalar.cmpi .eq (BitVec.ofNat 32 (i 2).val) 0#32)) 0#32) = 1#1
/-- It holds at the points t ≡ 0 (mod 4). -/
theorem hcond0 : ∀ t : Fin cfg0.N, cond0 (grid0.coords t) ↔ t.val % 4 = 0 :=
  (by decide +kernel : ∀ t : Fin grid0.N, cond0 (grid0.coords t) ↔ t.val % 4 = 0)
/-- "ii = 0 and c = 0", as the body's scalar chain computes it. -/
abbrev cond1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- It holds at the points t ≡ 0 (mod 8). -/
theorem hcond1 : ∀ t : Fin cfg0.N, cond1 (grid0.coords t) ↔ t.val % 8 = 0 :=
  (by decide +kernel : ∀ t : Fin grid0.N, cond1 (grid0.coords t) ↔ t.val % 8 = 0)

/-! ## What one point does to the two accumulators -/

/-- The 1024 rows of `s` that belong to the point's row block (rows 2048·core + 1024·ii onwards). -/
abbrev rowsS (i : grid0.Coords) : Rect S4096x70 := Rect.unit (s := S4096x70) (k0_off1 i) S1024x70.size (k0_off1_inb i)
/-- The 2048 rows of the repeated `s` that belong to the point's column block (rows 2048·c onwards). -/
abbrev rowsRep (i : grid0.Coords) : Rect S8192x70 := Rect.unit (s := S8192x70) (k0_off2 i) S2048x70.size (k0_off2_inb i)
/-- The same 2048 rows of the per-core column accumulator. -/
abbrev rowsAcc (i : grid0.Coords) : Rect S1x8192x70 := Rect.unit (s := S1x8192x70) (k0_off3 i) S1x2048x70.size (k0_off3_inb i)

/-- The column accumulator `y` with the rows of the point's column block replaced by `v`. -/
def putRows (i : grid0.Coords) (y : Vec F S1x8192x70 .f32) (v : Vec F S1x2048x70 .f32) : Vec F S1x8192x70 .f32 :=
  fun idx => if h : ∀ a, (k0_off3 i) a ≤ (idx a).val ∧ (idx a).val < (k0_off3 i) a + S1x2048x70.size a then
    v (Rect.unitLocal (s := S1x8192x70) (off := k0_off3 i) (size := S1x2048x70.size) idx h) else y idx

/-- The row-block accumulator after the point: what it held plus the block of `adj` times the column block's rows of the
    repeated `s`. -/
def step3 (i : grid0.Coords) (x0 : Vec F S1024x2048 .f32) (x2 : Vec F S8192x70 .f32) (y3 : Vec F S1024x70 .f32) : Vec F S1024x70 .f32 :=
  k0_pay5 x0 (View.ld x2 (rowsRep i)) y3
/-- The column accumulator after the point: the rows of the point's column block become what they held plus the
    transposed block of `adj` times the row block's rows of `s`; the other rows stay. -/
def step4 (i : grid0.Coords) (x0 : Vec F S1024x2048 .f32) (x1 : Vec F S4096x70 .f32) (y4 : Vec F S1x8192x70 .f32) : Vec F S1x8192x70 .f32 :=
  putRows i y4 (k0_pay1 (k0_pay6 x0 (View.ld x1 (rowsS i)) (View.ld y4 (rowsAcc i))))

/-! ## Reading a buffer after its newest store -/

/-- A store through the whole block, made last, leaves its payload. -/
theorem read_writes_cons_full {sig' : RefSig} {κ : Kind} {sp : Space} {S : Shape} {e : EltTy} {Val : EltTy → Type} (v : View sig' κ sp S e) (f : v.ty.Contents Val)
    {off : Fin S.rank → ℕ} (h : off = fun _ => 0) (inb : ∀ a, off a + S.size a ≤ S.size a)
    (w : (Rect.unit off S.size inb).shape.Idx → Val e) (L : List (View.Piece Val S e)) :
    v.read Val (v.writes Val f ((⟨Rect.unit off S.size inb, w⟩ : View.Piece Val S e) :: L)) = w := by
  funext y
  exact View.read_writes_cons_unit_of_mem v f inb w L y y h (fun a => (Nat.zero_add _).symm)

/-- A store through the rows of the point's column block, made last, replaces those rows. -/
theorem read_writes_cons_rows (i : grid0.Coords) (m7 : Memref sig .tc .vmem S1x8192x70 .f32) (f : m7.view.ty.Contents (Elt F))
    (w : Vec F S1x2048x70 .f32) (L : List (View.Piece (Elt F) S1x8192x70 .f32)) :
    m7.view.read (Elt F) (m7.view.writes (Elt F) f ((⟨rowsAcc i, w⟩ : View.Piece (Elt F) S1x8192x70 .f32) :: L))
      = putRows i (m7.view.read (Elt F) (m7.view.writes (Elt F) f L)) w := by
  funext idx
  rw [View.read_writes_cons_unit m7.view f (k0_off3_inb i) w L idx rfl]
  rfl

theorem hz2 : (![0, 0] : Fin 2 → ℕ) = fun _ => 0 := by funext a; fin_cases a <;> rfl
theorem hz3 : (![0, 0, 0] : Fin 3 → ℕ) = fun _ => 0 := by funext a; fin_cases a <;> rfl

end Cert.Kernel.Body

end
-- ==== Proof.RunsBits.lean ====
/-
  The kernel body run at one grid point, in each of the three cases of its two conditions: from the five staging
  buffers at named contents to the two accumulators advanced by the point (the step functions) and the inputs as
  they were. Stated for any float instance.
-/
import proofs.«170085_j76536317215120_2_alg».proof.Proof.StepBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Neither condition holds (c ≠ 0): both accumulators are advanced from what they held. -/
theorem runB (c : Dev nD) (i : grid0.Coords) (arg3 : Memref sig .tc .vmem S1024x2048 .f32) (harg3 : arg3.IsWhole) (arg4 : Memref sig .tc .vmem S4096x70 .f32) (harg4 : arg4.IsWhole) (arg5 : Memref sig .tc .vmem S8192x70 .f32) (harg5 : arg5.IsWhole) (arg6 : Memref sig .tc .vmem S1024x70 .f32) (harg6 : arg6.IsWhole) (arg7 : Memref sig .tc .vmem S1x8192x70 .f32) (harg7 : arg7.IsWhole) (hc0 : ¬cond0 i) (hc1 : ¬cond1 i)
    (x0 : Vec F S1024x2048 .f32) (x1 : Vec F S4096x70 .f32) (x2 : Vec F S8192x70 .f32) (y3 : Vec F S1024x70 .f32) (y4 : Vec F S1x8192x70 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare y3 ∗ owns (c : Thread nD τ) arg7 fullShare y4
            ∗ (iprop(owns (c : Thread nD τ) arg3 fullShare x0 ∗ owns (c : Thread nD τ) arg4 fullShare x1 ∗ owns (c : Thread nD τ) arg5 fullShare x2 ∗ owns (c : Thread nD τ) arg6 fullShare (step3 i x0 x2 y3) ∗ owns (c : Thread nD τ) arg7 fullShare (step4 i x0 x1 y4)) -∗ K ⟨⟩))
          ⊢ wp frame (wpE (defs₀ (F := F)) Variants.none c none) E (cc0__kernel i arg3 harg3 arg4 harg4 arg5 harg5 arg6 harg6 arg7 harg7) K := by
    intro E K
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; swap; · iexact H3
      ipureintro
      sl_unfold_run_names
      refine (read_writes_cons_full _ _ hz2 _ _ _).trans ?_
      unfold step3
      simp only [View.readAt_eq_ld, harg3.read_unread, harg5.read_unread, harg6.read_unread,
        View.ld_unit_zero (S := S1024x2048) hz2, View.ld_unit_zero (S := S1024x70) hz2]
    iexists _; isplitr; swap; · iexact H4
    ipureintro
    sl_unfold_run_names
    refine (read_writes_cons_rows i arg7 _ _ _).trans ?_
    unfold step4
    simp only [View.readAt_eq_ld, harg3.read_unread, harg4.read_unread, harg7.read_unread, View.writes_nil,
      View.ld_unit_zero (S := S1024x2048) hz2]

set_option maxHeartbeats 1000000 in
/-- Both conditions hold (ii = 0, c = 0): both accumulators are zeroed, then advanced. -/
theorem runA (c : Dev nD) (i : grid0.Coords) (arg3 : Memref sig .tc .vmem S1024x2048 .f32) (harg3 : arg3.IsWhole) (arg4 : Memref sig .tc .vmem S4096x70 .f32) (harg4 : arg4.IsWhole) (arg5 : Memref sig .tc .vmem S8192x70 .f32) (harg5 : arg5.IsWhole) (arg6 : Memref sig .tc .vmem S1024x70 .f32) (harg6 : arg6.IsWhole) (arg7 : Memref sig .tc .vmem S1x8192x70 .f32) (harg7 : arg7.IsWhole) (hc0 : cond0 i) (hc1 : cond1 i)
    (x0 : Vec F S1024x2048 .f32) (x1 : Vec F S4096x70 .f32) (x2 : Vec F S8192x70 .f32) (y3 : Vec F S1024x70 .f32) (y4 : Vec F S1x8192x70 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare y3 ∗ owns (c : Thread nD τ) arg7 fullShare y4
            ∗ (iprop(owns (c : Thread nD τ) arg3 fullShare x0 ∗ owns (c : Thread nD τ) arg4 fullShare x1 ∗ owns (c : Thread nD τ) arg5 fullShare x2 ∗ owns (c : Thread nD τ) arg6 fullShare (step3 i x0 x2 k0_pay2) ∗ owns (c : Thread nD τ) arg7 fullShare (step4 i x0 x1 k0_pay3)) -∗ K ⟨⟩))
          ⊢ wp frame (wpE (defs₀ (F := F)) Variants.none c none) E (cc0__kernel i arg3 harg3 arg4 harg4 arg5 harg5 arg6 harg6 arg7 harg7) K := by
    intro E K
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; swap; · iexact H3
      ipureintro
      sl_unfold_run_names
      refine (read_writes_cons_full _ _ hz2 _ _ _).trans ?_
      unfold step3
      simp only [View.readAt_eq_ld, harg3.read_unread, harg5.read_unread, harg6.read_unread,
        View.ld_unit_zero (S := S1024x2048) hz2, View.ld_unit_zero (S := S1024x70) hz2,
        View.readCov_unit_zero (S := S1024x70) arg6.view hz2]
    iexists _; isplitr; swap; · iexact H4
    ipureintro
    sl_unfold_run_names
    refine (read_writes_cons_rows i arg7 _ _ _).trans ?_
    unfold step4
    simp only [View.readAt_eq_ld, harg3.read_unread, harg4.read_unread, harg7.read_unread, View.writes_nil,
      View.ld_unit_zero (S := S1024x2048) hz2,
      read_writes_cons_full (S := S1x8192x70) arg7.view _ hz3]

set_option maxHeartbeats 1000000 in
/-- Only the first holds (ii ≠ 0, c = 0): the row-block accumulator is zeroed, then both are advanced. -/
theorem runC (c : Dev nD) (i : grid0.Coords) (arg3 : Memref sig .tc .vmem S1024x2048 .f32) (harg3 : arg3.IsWhole) (arg4 : Memref sig .tc .vmem S4096x70 .f32) (harg4 : arg4.IsWhole) (arg5 : Memref sig .tc .vmem S8192x70 .f32) (harg5 : arg5.IsWhole) (arg6 : Memref sig .tc .vmem S1024x70 .f32) (harg6 : arg6.IsWhole) (arg7 : Memref sig .tc .vmem S1x8192x70 .f32) (harg7 : arg7.IsWhole) (hc0 : cond0 i) (hc1 : ¬cond1 i)
    (x0 : Vec F S1024x2048 .f32) (x1 : Vec F S4096x70 .f32) (x2 : Vec F S8192x70 .f32) (y3 : Vec F S1024x70 .f32) (y4 : Vec F S1x8192x70 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare y3 ∗ owns (c : Thread nD τ) arg7 fullShare y4
            ∗ (iprop(owns (c : Thread nD τ) arg3 fullShare x0 ∗ owns (c : Thread nD τ) arg4 fullShare x1 ∗ owns (c : Thread nD τ) arg5 fullShare x2 ∗ owns (c : Thread nD τ) arg6 fullShare (step3 i x0 x2 k0_pay2) ∗ owns (c : Thread nD τ) arg7 fullShare (step4 i x0 x1 y4)) -∗ K ⟨⟩))
          ⊢ wp frame (wpE (defs₀ (F := F)) Variants.none c none) E (cc0__kernel i arg3 harg3 arg4 harg4 arg5 harg5 arg6 harg6 arg7 harg7) K := by
    intro E K
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; swap; · iexact H3
      ipureintro
      sl_unfold_run_names
      refine (read_writes_cons_full _ _ hz2 _ _ _).trans ?_
      unfold step3
      simp only [View.readAt_eq_ld, harg3.read_unread, harg5.read_unread, harg6.read_unread,
        View.ld_unit_zero (S := S1024x2048) hz2, View.ld_unit_zero (S := S1024x70) hz2,
        View.readCov_unit_zero (S := S1024x70) arg6.view hz2]
    iexists _; isplitr; swap; · iexact H4
    ipureintro
    sl_unfold_run_names
    refine (read_writes_cons_rows i arg7 _ _ _).trans ?_
    unfold step4
    simp only [View.readAt_eq_ld, harg3.read_unread, harg4.read_unread, harg7.read_unread, View.writes_nil,
      View.ld_unit_zero (S := S1024x2048) hz2]

end Cert.Kernel.Body

end
-- ==== Proof.DataBits.lean ====
/-
  The pipeline's proof data and the frame. What the two accumulators hold after each grid point is a recursion on the
  point: the row-block accumulator restarts from zero at the points t ≡ 0 (mod 4) (c = 0) and is written back after
  t ≡ 3 (mod 4); the per-core column accumulator restarts from zero at t ≡ 0 (mod 8) (ii = 0, c = 0) and is written
  back after t ≡ 7 (mod 8); in between each is what the point before left, advanced by the point's step. Wherever a
  staging buffer holds contents nobody named (the first point, or the point after a write-back) the body zeroes it
  before reading it, so every point's result is a function of the argument arrays. Stated for any float instance.
-/
import proofs.«170085_j76536317215120_2_alg».proof.Proof.RunsBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging buffer at point `t`, and that it is a whole buffer. -/
abbrev buf0 (t : Fin cfg0.N) : Memref sig .tc .vmem S1024x2048 .f32 := win0_0.stage (cfg0.slots t 0)
abbrev whole0 (t : Fin cfg0.N) : (buf0 t).IsWhole := hstage0_0 ((cfg0.slots t 0).cast nbuf0_0)
abbrev buf1 (t : Fin cfg0.N) : Memref sig .tc .vmem S4096x70 .f32 := win0_1.stage (cfg0.slots t 1)
abbrev whole1 (t : Fin cfg0.N) : (buf1 t).IsWhole := hstage0_1 ((cfg0.slots t 1).cast nbuf0_1)
abbrev buf2 (t : Fin cfg0.N) : Memref sig .tc .vmem S8192x70 .f32 := win0_2.stage (cfg0.slots t 2)
abbrev whole2 (t : Fin cfg0.N) : (buf2 t).IsWhole := hstage0_2 ((cfg0.slots t 2).cast nbuf0_2)
abbrev buf3 (t : Fin cfg0.N) : Memref sig .tc .vmem S1024x70 .f32 := win0_3.stage (cfg0.slots t 3)
abbrev whole3 (t : Fin cfg0.N) : (buf3 t).IsWhole := hstage0_3 ((cfg0.slots t 3).cast nbuf0_3)
abbrev buf4 (t : Fin cfg0.N) : Memref sig .tc .vmem S1x8192x70 .f32 := win0_4.stage (cfg0.slots t 4)
abbrev whole4 (t : Fin cfg0.N) : (buf4 t).IsWhole := hstage0_4 ((cfg0.slots t 4).cast nbuf0_4)

/-! ## The two accumulators, point by point -/

/-- What the row-block accumulator and the column accumulator hold after the body at position `n`. -/
def outs (c : Dev nD) : (n : ℕ) → n < cfg0.N → Vec F S1024x70 .f32 × Vec F S1x8192x70 .f32
  | 0, hn =>
    (step3 (grid0.coords ⟨0, hn⟩) (iblk m c 0 ⟨0, hn⟩) (iblk m c 2 ⟨0, hn⟩) k0_pay2,
     step4 (grid0.coords ⟨0, hn⟩) (iblk m c 0 ⟨0, hn⟩) (iblk m c 1 ⟨0, hn⟩) k0_pay3)
  | n + 1, hn =>
    (step3 (grid0.coords ⟨n + 1, hn⟩) (iblk m c 0 ⟨n + 1, hn⟩) (iblk m c 2 ⟨n + 1, hn⟩)
        (if (n + 1) % 4 = 0 then k0_pay2 else (outs c n (Nat.lt_of_succ_lt hn)).1),
     step4 (grid0.coords ⟨n + 1, hn⟩) (iblk m c 0 ⟨n + 1, hn⟩) (iblk m c 1 ⟨n + 1, hn⟩)
        (if (n + 1) % 8 = 0 then k0_pay3 else (outs c n (Nat.lt_of_succ_lt hn)).2))

/-- The position before `t` is a position of the grid. -/
theorem pred_lt (t : Fin cfg0.N) : t.val - 1 < cfg0.N := Nat.lt_of_le_of_lt (Nat.sub_le _ _) t.isLt

/-- The row-block accumulator after point `t`: the point's step from zero (c = 0) or from what the point before left. -/
theorem outs_fst (c : Dev nD) (t : Fin cfg0.N) :
    (outs m c t.val t.isLt).1 = step3 (grid0.coords t) (iblk m c 0 t) (iblk m c 2 t)
      (if t.val % 4 = 0 then k0_pay2 else (outs m c (t.val - 1) (pred_lt t)).1) := by
  obtain ⟨n, hn⟩ := t
  cases n with
  | zero => exact (congrArg (step3 _ _ _) (if_pos (Nat.zero_mod 4)).symm)
  | succ n => rfl

/-- The column accumulator after point `t`: the point's step from zero (ii = 0, c = 0) or from what the point before left. -/
theorem outs_snd (c : Dev nD) (t : Fin cfg0.N) :
    (outs m c t.val t.isLt).2 = step4 (grid0.coords t) (iblk m c 0 t) (iblk m c 1 t)
      (if t.val % 8 = 0 then k0_pay3 else (outs m c (t.val - 1) (pred_lt t)).2) := by
  obtain ⟨n, hn⟩ := t
  cases n with
  | zero => exact (congrArg (step4 _ _ _) (if_pos (Nat.zero_mod 8)).symm)
  | succ n => rfl

/-! ## The proof data -/

/-- The proof data of the one pipeline on core `c`: the arrays as the region finds them; after the body at point `t`
    each input's buffer at its block and the two outputs' at the accumulators' contents; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outs m c t.val t.isLt).1
    | ⟨4, _⟩ => (outs m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outs m c t.val t.isLt).1 := by dsimp only [dats]
theorem after4 (c : Dev nD) (t : Fin cfg0.N) : (dats m 0 c).after 4 t = (outs m c t.val t.isLt).2 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- Away from c = 0 the row-block accumulator's buffer holds what the point before left: the point is not the first
    and the buffer was not written back in between (write-backs follow the points t ≡ 3 (mod 4) only). -/
theorem before3 (c : Dev nD) (t : Fin cfg0.N) (h0 : ¬t.val % 4 = 0) (d) :
    (dats m 0 c).before 3 t d = (outs m c (t.val - 1) (pred_lt t)).1 := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dats]

/-- Away from ii = 0, c = 0 the column accumulator's buffer holds what the point before left (write-backs follow the
    points t ≡ 7 (mod 8) only). -/
theorem before4 (c : Dev nD) (t : Fin cfg0.N) (h1 : ¬t.val % 8 = 0) (d) :
    (dats m 0 c).before 4 t d = (outs m c (t.val - 1) (pred_lt t)).2 := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t))

set_option maxHeartbeats 1200000 in
/-- The body at any point. The inputs' buffers hold their blocks; the point's position decides which of the three
    cases it is in; an accumulator the case does not zero holds what the point before left; so the case's run applies
    and leaves the accumulators at the recursion's next value. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3, after4, outs_fst, outs_snd]
  have hN : t.val < 16 := lt_of_lt_of_eq t.isLt (show cfg0.N = 16 from N_0)
  by_cases h0 : t.val % 4 = 0
  · by_cases h1 : t.val % 8 = 0
    · rw [if_pos h0, if_pos h1]
      iintro ⟨HΦ, Ho, ⟨%d0, H0⟩, ⟨%d1, H1⟩, ⟨%d2, H2⟩, ⟨%d3, H3⟩, ⟨%d4, H4⟩⟩
      iapply ((runA c (grid0.coords t) _ _ _ _ _ _ _ _ _ _ ((hcond0 t).mpr h0) ((hcond1 t).mpr h1) (iblk m c 0 t) (iblk m c 1 t) (iblk m c 2 t) _ _) Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4
    · rw [if_pos h0, if_neg h1]
      simp only [before4 m c t h1]
      iintro ⟨HΦ, Ho, ⟨%d0, H0⟩, ⟨%d1, H1⟩, ⟨%d2, H2⟩, ⟨%d3, H3⟩, ⟨%d4, H4⟩⟩
      iapply ((runC c (grid0.coords t) _ _ _ _ _ _ _ _ _ _ ((hcond0 t).mpr h0) (fun h => h1 ((hcond1 t).mp h)) (iblk m c 0 t) (iblk m c 1 t) (iblk m c 2 t) _ _) Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4
  · have h1 : ¬t.val % 8 = 0 := fun h => h0 (by omega)
    rw [if_neg h0, if_neg h1]
    simp only [before3 m c t h0, before4 m c t h1]
    iintro ⟨HΦ, Ho, ⟨%d0, H0⟩, ⟨%d1, H1⟩, ⟨%d2, H2⟩, ⟨%d3, H3⟩, ⟨%d4, H4⟩⟩
    iapply ((runB c (grid0.coords t) _ _ _ _ _ _ _ _ _ _ (fun h => h0 ((hcond0 t).mp h)) (fun h => h1 ((hcond1 t).mp h)) (iblk m c 0 t) (iblk m c 1 t) (iblk m c 2 t) _ _) Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; afterwards every array of the pipeline holds what
    the write-backs of the proof data leave, and every other buffer what the host operations after the region compute
    from that. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run terminates without a fault and the two argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.StepIdeal.lean ====
/-
  What one grid point of the kernel does to its two accumulators, as functions of the blocks it reads, and how a
  staging buffer reads back after the point's stores. Stated for any float instance.
-/
import proofs.«170085_j76536317215120_2_alg».proof.Proof.Gen.KernelIdeal.Frame
import proofs.«170085_j76536317215120_2_alg».proof.Proof.Gen.KernelIdeal.Skeleton
import Idealize.ShloMosaic.Lib.WritesUnit
import Idealize.ShloMosaic.Lib.Pipeline.Value
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two conditions of the body, over the grid

A grid point is (core, ii, c), numbered t = 8·core + 4·ii + c. The row-block accumulator is zeroed when c = 0, the
per-core column accumulator when ii = 0 and c = 0. -/

/-- "c = 0", as the body's scalar chain computes it. -/
abbrev cond0 (i : grid0.Coords) : Prop := (Scalar.cmpi .ne (Scalar.extui (Scalar.cmpi .eq (BitVec.ofNat 32 (i 2).val) 0#32)) 0#32) = 1#1
/-- It holds at the points t ≡ 0 (mod 4). -/
theorem hcond0 : ∀ t : Fin cfg0.N, cond0 (grid0.coords t) ↔ t.val % 4 = 0 :=
  (by decide +kernel : ∀ t : Fin grid0.N, cond0 (grid0.coords t) ↔ t.val % 4 = 0)
/-- "ii = 0 and c = 0", as the body's scalar chain computes it. -/
abbrev cond1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- It holds at the points t ≡ 0 (mod 8). -/
theorem hcond1 : ∀ t : Fin cfg0.N, cond1 (grid0.coords t) ↔ t.val % 8 = 0 :=
  (by decide +kernel : ∀ t : Fin grid0.N, cond1 (grid0.coords t) ↔ t.val % 8 = 0)

/-! ## What one point does to the two accumulators -/

/-- The 1024 rows of `s` that belong to the point's row block (rows 2048·core + 1024·ii onwards). -/
abbrev rowsS (i : grid0.Coords) : Rect S4096x70 := Rect.unit (s := S4096x70) (k0_off1 i) S1024x70.size (k0_off1_inb i)
/-- The 2048 rows of the repeated `s` that belong to the point's column block (rows 2048·c onwards). -/
abbrev rowsRep (i : grid0.Coords) : Rect S8192x70 := Rect.unit (s := S8192x70) (k0_off2 i) S2048x70.size (k0_off2_inb i)
/-- The same 2048 rows of the per-core column accumulator. -/
abbrev rowsAcc (i : grid0.Coords) : Rect S1x8192x70 := Rect.unit (s := S1x8192x70) (k0_off3 i) S1x2048x70.size (k0_off3_inb i)

/-- The column accumulator `y` with the rows of the point's column block replaced by `v`. -/
def putRows (i : grid0.Coords) (y : Vec F S1x8192x70 .f32) (v : Vec F S1x2048x70 .f32) : Vec F S1x8192x70 .f32 :=
  fun idx => if h : ∀ a, (k0_off3 i) a ≤ (idx a).val ∧ (idx a).val < (k0_off3 i) a + S1x2048x70.size a then
    v (Rect.unitLocal (s := S1x8192x70) (off := k0_off3 i) (size := S1x2048x70.size) idx h) else y idx

/-- The row-block accumulator after the point: what it held plus the block of `adj` times the column block's rows of the
    repeated `s`. -/
def step3 (i : grid0.Coords) (x0 : Vec F S1024x2048 .f32) (x2 : Vec F S8192x70 .f32) (y3 : Vec F S1024x70 .f32) : Vec F S1024x70 .f32 :=
  k0_pay5 x0 (View.ld x2 (rowsRep i)) y3
/-- The column accumulator after the point: the rows of the point's column block become what they held plus the
    transposed block of `adj` times the row block's rows of `s`; the other rows stay. -/
def step4 (i : grid0.Coords) (x0 : Vec F S1024x2048 .f32) (x1 : Vec F S4096x70 .f32) (y4 : Vec F S1x8192x70 .f32) : Vec F S1x8192x70 .f32 :=
  putRows i y4 (k0_pay1 (k0_pay6 x0 (View.ld x1 (rowsS i)) (View.ld y4 (rowsAcc i))))

/-! ## Reading a buffer after its newest store -/

/-- A store through the whole block, made last, leaves its payload. -/
theorem read_writes_cons_full {sig' : RefSig} {κ : Kind} {sp : Space} {S : Shape} {e : EltTy} {Val : EltTy → Type} (v : View sig' κ sp S e) (f : v.ty.Contents Val)
    {off : Fin S.rank → ℕ} (h : off = fun _ => 0) (inb : ∀ a, off a + S.size a ≤ S.size a)
    (w : (Rect.unit off S.size inb).shape.Idx → Val e) (L : List (View.Piece Val S e)) :
    v.read Val (v.writes Val f ((⟨Rect.unit off S.size inb, w⟩ : View.Piece Val S e) :: L)) = w := by
  funext y
  exact View.read_writes_cons_unit_of_mem v f inb w L y y h (fun a => (Nat.zero_add _).symm)

/-- A store through the rows of the point's column block, made last, replaces those rows. -/
theorem read_writes_cons_rows (i : grid0.Coords) (m7 : Memref sig .tc .vmem S1x8192x70 .f32) (f : m7.view.ty.Contents (Elt F))
    (w : Vec F S1x2048x70 .f32) (L : List (View.Piece (Elt F) S1x8192x70 .f32)) :
    m7.view.read (Elt F) (m7.view.writes (Elt F) f ((⟨rowsAcc i, w⟩ : View.Piece (Elt F) S1x8192x70 .f32) :: L))
      = putRows i (m7.view.read (Elt F) (m7.view.writes (Elt F) f L)) w := by
  funext idx
  rw [View.read_writes_cons_unit m7.view f (k0_off3_inb i) w L idx rfl]
  rfl

theorem hz2 : (![0, 0] : Fin 2 → ℕ) = fun _ => 0 := by funext a; fin_cases a <;> rfl
theorem hz3 : (![0, 0, 0] : Fin 3 → ℕ) = fun _ => 0 := by funext a; fin_cases a <;> rfl

end Cert.KernelIdeal.Body

end
-- ==== Proof.RunsIdeal.lean ====
/-
  The kernel body run at one grid point, in each of the three cases of its two conditions: from the five staging
  buffers at named contents to the two accumulators advanced by the point (the step functions) and the inputs as
  they were. Stated for any float instance.
-/
import proofs.«170085_j76536317215120_2_alg».proof.Proof.StepIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Neither condition holds (c ≠ 0): both accumulators are advanced from what they held. -/
theorem runB (c : Dev nD) (i : grid0.Coords) (arg3 : Memref sig .tc .vmem S1024x2048 .f32) (harg3 : arg3.IsWhole) (arg4 : Memref sig .tc .vmem S4096x70 .f32) (harg4 : arg4.IsWhole) (arg5 : Memref sig .tc .vmem S8192x70 .f32) (harg5 : arg5.IsWhole) (arg6 : Memref sig .tc .vmem S1024x70 .f32) (harg6 : arg6.IsWhole) (arg7 : Memref sig .tc .vmem S1x8192x70 .f32) (harg7 : arg7.IsWhole) (hc0 : ¬cond0 i) (hc1 : ¬cond1 i)
    (x0 : Vec F S1024x2048 .f32) (x1 : Vec F S4096x70 .f32) (x2 : Vec F S8192x70 .f32) (y3 : Vec F S1024x70 .f32) (y4 : Vec F S1x8192x70 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare y3 ∗ owns (c : Thread nD τ) arg7 fullShare y4
            ∗ (iprop(owns (c : Thread nD τ) arg3 fullShare x0 ∗ owns (c : Thread nD τ) arg4 fullShare x1 ∗ owns (c : Thread nD τ) arg5 fullShare x2 ∗ owns (c : Thread nD τ) arg6 fullShare (step3 i x0 x2 y3) ∗ owns (c : Thread nD τ) arg7 fullShare (step4 i x0 x1 y4)) -∗ K ⟨⟩))
          ⊢ wp frame (wpE (defs₀ (F := F)) Variants.none c none) E (cc0__kernel i arg3 harg3 arg4 harg4 arg5 harg5 arg6 harg6 arg7 harg7) K := by
    intro E K
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; swap; · iexact H3
      ipureintro
      sl_unfold_run_names
      refine (read_writes_cons_full _ _ hz2 _ _ _).trans ?_
      unfold step3
      simp only [View.readAt_eq_ld, harg3.read_unread, harg5.read_unread, harg6.read_unread,
        View.ld_unit_zero (S := S1024x2048) hz2, View.ld_unit_zero (S := S1024x70) hz2]
    iexists _; isplitr; swap; · iexact H4
    ipureintro
    sl_unfold_run_names
    refine (read_writes_cons_rows i arg7 _ _ _).trans ?_
    unfold step4
    simp only [View.readAt_eq_ld, harg3.read_unread, harg4.read_unread, harg7.read_unread, View.writes_nil,
      View.ld_unit_zero (S := S1024x2048) hz2]

set_option maxHeartbeats 1000000 in
/-- Both conditions hold (ii = 0, c = 0): both accumulators are zeroed, then advanced. -/
theorem runA (c : Dev nD) (i : grid0.Coords) (arg3 : Memref sig .tc .vmem S1024x2048 .f32) (harg3 : arg3.IsWhole) (arg4 : Memref sig .tc .vmem S4096x70 .f32) (harg4 : arg4.IsWhole) (arg5 : Memref sig .tc .vmem S8192x70 .f32) (harg5 : arg5.IsWhole) (arg6 : Memref sig .tc .vmem S1024x70 .f32) (harg6 : arg6.IsWhole) (arg7 : Memref sig .tc .vmem S1x8192x70 .f32) (harg7 : arg7.IsWhole) (hc0 : cond0 i) (hc1 : cond1 i)
    (x0 : Vec F S1024x2048 .f32) (x1 : Vec F S4096x70 .f32) (x2 : Vec F S8192x70 .f32) (y3 : Vec F S1024x70 .f32) (y4 : Vec F S1x8192x70 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare y3 ∗ owns (c : Thread nD τ) arg7 fullShare y4
            ∗ (iprop(owns (c : Thread nD τ) arg3 fullShare x0 ∗ owns (c : Thread nD τ) arg4 fullShare x1 ∗ owns (c : Thread nD τ) arg5 fullShare x2 ∗ owns (c : Thread nD τ) arg6 fullShare (step3 i x0 x2 k0_pay2) ∗ owns (c : Thread nD τ) arg7 fullShare (step4 i x0 x1 k0_pay3)) -∗ K ⟨⟩))
          ⊢ wp frame (wpE (defs₀ (F := F)) Variants.none c none) E (cc0__kernel i arg3 harg3 arg4 harg4 arg5 harg5 arg6 harg6 arg7 harg7) K := by
    intro E K
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; swap; · iexact H3
      ipureintro
      sl_unfold_run_names
      refine (read_writes_cons_full _ _ hz2 _ _ _).trans ?_
      unfold step3
      simp only [View.readAt_eq_ld, harg3.read_unread, harg5.read_unread, harg6.read_unread,
        View.ld_unit_zero (S := S1024x2048) hz2, View.ld_unit_zero (S := S1024x70) hz2,
        View.readCov_unit_zero (S := S1024x70) arg6.view hz2]
    iexists _; isplitr; swap; · iexact H4
    ipureintro
    sl_unfold_run_names
    refine (read_writes_cons_rows i arg7 _ _ _).trans ?_
    unfold step4
    simp only [View.readAt_eq_ld, harg3.read_unread, harg4.read_unread, harg7.read_unread, View.writes_nil,
      View.ld_unit_zero (S := S1024x2048) hz2,
      read_writes_cons_full (S := S1x8192x70) arg7.view _ hz3]

set_option maxHeartbeats 1000000 in
/-- Only the first holds (ii ≠ 0, c = 0): the row-block accumulator is zeroed, then both are advanced. -/
theorem runC (c : Dev nD) (i : grid0.Coords) (arg3 : Memref sig .tc .vmem S1024x2048 .f32) (harg3 : arg3.IsWhole) (arg4 : Memref sig .tc .vmem S4096x70 .f32) (harg4 : arg4.IsWhole) (arg5 : Memref sig .tc .vmem S8192x70 .f32) (harg5 : arg5.IsWhole) (arg6 : Memref sig .tc .vmem S1024x70 .f32) (harg6 : arg6.IsWhole) (arg7 : Memref sig .tc .vmem S1x8192x70 .f32) (harg7 : arg7.IsWhole) (hc0 : cond0 i) (hc1 : ¬cond1 i)
    (x0 : Vec F S1024x2048 .f32) (x1 : Vec F S4096x70 .f32) (x2 : Vec F S8192x70 .f32) (y3 : Vec F S1024x70 .f32) (y4 : Vec F S1x8192x70 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare y3 ∗ owns (c : Thread nD τ) arg7 fullShare y4
            ∗ (iprop(owns (c : Thread nD τ) arg3 fullShare x0 ∗ owns (c : Thread nD τ) arg4 fullShare x1 ∗ owns (c : Thread nD τ) arg5 fullShare x2 ∗ owns (c : Thread nD τ) arg6 fullShare (step3 i x0 x2 k0_pay2) ∗ owns (c : Thread nD τ) arg7 fullShare (step4 i x0 x1 y4)) -∗ K ⟨⟩))
          ⊢ wp frame (wpE (defs₀ (F := F)) Variants.none c none) E (cc0__kernel i arg3 harg3 arg4 harg4 arg5 harg5 arg6 harg6 arg7 harg7) K := by
    intro E K
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; swap; · iexact H3
      ipureintro
      sl_unfold_run_names
      refine (read_writes_cons_full _ _ hz2 _ _ _).trans ?_
      unfold step3
      simp only [View.readAt_eq_ld, harg3.read_unread, harg5.read_unread, harg6.read_unread,
        View.ld_unit_zero (S := S1024x2048) hz2, View.ld_unit_zero (S := S1024x70) hz2,
        View.readCov_unit_zero (S := S1024x70) arg6.view hz2]
    iexists _; isplitr; swap; · iexact H4
    ipureintro
    sl_unfold_run_names
    refine (read_writes_cons_rows i arg7 _ _ _).trans ?_
    unfold step4
    simp only [View.readAt_eq_ld, harg3.read_unread, harg4.read_unread, harg7.read_unread, View.writes_nil,
      View.ld_unit_zero (S := S1024x2048) hz2]

end Cert.KernelIdeal.Body

end
-- ==== Proof.DataIdeal.lean ====
/-
  The pipeline's proof data and the frame. What the two accumulators hold after each grid point is a recursion on the
  point: the row-block accumulator restarts from zero at the points t ≡ 0 (mod 4) (c = 0) and is written back after
  t ≡ 3 (mod 4); the per-core column accumulator restarts from zero at t ≡ 0 (mod 8) (ii = 0, c = 0) and is written
  back after t ≡ 7 (mod 8); in between each is what the point before left, advanced by the point's step. Wherever a
  staging buffer holds contents nobody named (the first point, or the point after a write-back) the body zeroes it
  before reading it, so every point's result is a function of the argument arrays. Stated for any float instance.
-/
import proofs.«170085_j76536317215120_2_alg».proof.Proof.RunsIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging buffer at point `t`, and that it is a whole buffer. -/
abbrev buf0 (t : Fin cfg0.N) : Memref sig .tc .vmem S1024x2048 .f32 := win0_0.stage (cfg0.slots t 0)
abbrev whole0 (t : Fin cfg0.N) : (buf0 t).IsWhole := hstage0_0 ((cfg0.slots t 0).cast nbuf0_0)
abbrev buf1 (t : Fin cfg0.N) : Memref sig .tc .vmem S4096x70 .f32 := win0_1.stage (cfg0.slots t 1)
abbrev whole1 (t : Fin cfg0.N) : (buf1 t).IsWhole := hstage0_1 ((cfg0.slots t 1).cast nbuf0_1)
abbrev buf2 (t : Fin cfg0.N) : Memref sig .tc .vmem S8192x70 .f32 := win0_2.stage (cfg0.slots t 2)
abbrev whole2 (t : Fin cfg0.N) : (buf2 t).IsWhole := hstage0_2 ((cfg0.slots t 2).cast nbuf0_2)
abbrev buf3 (t : Fin cfg0.N) : Memref sig .tc .vmem S1024x70 .f32 := win0_3.stage (cfg0.slots t 3)
abbrev whole3 (t : Fin cfg0.N) : (buf3 t).IsWhole := hstage0_3 ((cfg0.slots t 3).cast nbuf0_3)
abbrev buf4 (t : Fin cfg0.N) : Memref sig .tc .vmem S1x8192x70 .f32 := win0_4.stage (cfg0.slots t 4)
abbrev whole4 (t : Fin cfg0.N) : (buf4 t).IsWhole := hstage0_4 ((cfg0.slots t 4).cast nbuf0_4)

/-! ## The two accumulators, point by point -/

/-- What the row-block accumulator and the column accumulator hold after the body at position `n`. -/
def outs (c : Dev nD) : (n : ℕ) → n < cfg0.N → Vec F S1024x70 .f32 × Vec F S1x8192x70 .f32
  | 0, hn =>
    (step3 (grid0.coords ⟨0, hn⟩) (iblk m c 0 ⟨0, hn⟩) (iblk m c 2 ⟨0, hn⟩) k0_pay2,
     step4 (grid0.coords ⟨0, hn⟩) (iblk m c 0 ⟨0, hn⟩) (iblk m c 1 ⟨0, hn⟩) k0_pay3)
  | n + 1, hn =>
    (step3 (grid0.coords ⟨n + 1, hn⟩) (iblk m c 0 ⟨n + 1, hn⟩) (iblk m c 2 ⟨n + 1, hn⟩)
        (if (n + 1) % 4 = 0 then k0_pay2 else (outs c n (Nat.lt_of_succ_lt hn)).1),
     step4 (grid0.coords ⟨n + 1, hn⟩) (iblk m c 0 ⟨n + 1, hn⟩) (iblk m c 1 ⟨n + 1, hn⟩)
        (if (n + 1) % 8 = 0 then k0_pay3 else (outs c n (Nat.lt_of_succ_lt hn)).2))

/-- The position before `t` is a position of the grid. -/
theorem pred_lt (t : Fin cfg0.N) : t.val - 1 < cfg0.N := Nat.lt_of_le_of_lt (Nat.sub_le _ _) t.isLt

/-- The row-block accumulator after point `t`: the point's step from zero (c = 0) or from what the point before left. -/
theorem outs_fst (c : Dev nD) (t : Fin cfg0.N) :
    (outs m c t.val t.isLt).1 = step3 (grid0.coords t) (iblk m c 0 t) (iblk m c 2 t)
      (if t.val % 4 = 0 then k0_pay2 else (outs m c (t.val - 1) (pred_lt t)).1) := by
  obtain ⟨n, hn⟩ := t
  cases n with
  | zero => exact (congrArg (step3 _ _ _) (if_pos (Nat.zero_mod 4)).symm)
  | succ n => rfl

/-- The column accumulator after point `t`: the point's step from zero (ii = 0, c = 0) or from what the point before left. -/
theorem outs_snd (c : Dev nD) (t : Fin cfg0.N) :
    (outs m c t.val t.isLt).2 = step4 (grid0.coords t) (iblk m c 0 t) (iblk m c 1 t)
      (if t.val % 8 = 0 then k0_pay3 else (outs m c (t.val - 1) (pred_lt t)).2) := by
  obtain ⟨n, hn⟩ := t
  cases n with
  | zero => exact (congrArg (step4 _ _ _) (if_pos (Nat.zero_mod 8)).symm)
  | succ n => rfl

/-! ## The proof data -/

/-- The proof data of the one pipeline on core `c`: the arrays as the region finds them; after the body at point `t`
    each input's buffer at its block and the two outputs' at the accumulators' contents; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outs m c t.val t.isLt).1
    | ⟨4, _⟩ => (outs m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outs m c t.val t.isLt).1 := by dsimp only [dats]
theorem after4 (c : Dev nD) (t : Fin cfg0.N) : (dats m 0 c).after 4 t = (outs m c t.val t.isLt).2 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- Away from c = 0 the row-block accumulator's buffer holds what the point before left: the point is not the first
    and the buffer was not written back in between (write-backs follow the points t ≡ 3 (mod 4) only). -/
theorem before3 (c : Dev nD) (t : Fin cfg0.N) (h0 : ¬t.val % 4 = 0) (d) :
    (dats m 0 c).before 3 t d = (outs m c (t.val - 1) (pred_lt t)).1 := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dats]

/-- Away from ii = 0, c = 0 the column accumulator's buffer holds what the point before left (write-backs follow the
    points t ≡ 7 (mod 8) only). -/
theorem before4 (c : Dev nD) (t : Fin cfg0.N) (h1 : ¬t.val % 8 = 0) (d) :
    (dats m 0 c).before 4 t d = (outs m c (t.val - 1) (pred_lt t)).2 := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t))

set_option maxHeartbeats 1200000 in
/-- The body at any point. The inputs' buffers hold their blocks; the point's position decides which of the three
    cases it is in; an accumulator the case does not zero holds what the point before left; so the case's run applies
    and leaves the accumulators at the recursion's next value. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3, after4, outs_fst, outs_snd]
  have hN : t.val < 16 := lt_of_lt_of_eq t.isLt (show cfg0.N = 16 from N_0)
  by_cases h0 : t.val % 4 = 0
  · by_cases h1 : t.val % 8 = 0
    · rw [if_pos h0, if_pos h1]
      iintro ⟨HΦ, Ho, ⟨%d0, H0⟩, ⟨%d1, H1⟩, ⟨%d2, H2⟩, ⟨%d3, H3⟩, ⟨%d4, H4⟩⟩
      iapply ((runA c (grid0.coords t) _ _ _ _ _ _ _ _ _ _ ((hcond0 t).mpr h0) ((hcond1 t).mpr h1) (iblk m c 0 t) (iblk m c 1 t) (iblk m c 2 t) _ _) Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4
    · rw [if_pos h0, if_neg h1]
      simp only [before4 m c t h1]
      iintro ⟨HΦ, Ho, ⟨%d0, H0⟩, ⟨%d1, H1⟩, ⟨%d2, H2⟩, ⟨%d3, H3⟩, ⟨%d4, H4⟩⟩
      iapply ((runC c (grid0.coords t) _ _ _ _ _ _ _ _ _ _ ((hcond0 t).mpr h0) (fun h => h1 ((hcond1 t).mp h)) (iblk m c 0 t) (iblk m c 1 t) (iblk m c 2 t) _ _) Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4
  · have h1 : ¬t.val % 8 = 0 := fun h => h0 (by omega)
    rw [if_neg h0, if_neg h1]
    simp only [before3 m c t h0, before4 m c t h1]
    iintro ⟨HΦ, Ho, ⟨%d0, H0⟩, ⟨%d1, H1⟩, ⟨%d2, H2⟩, ⟨%d3, H3⟩, ⟨%d4, H4⟩⟩
    iapply ((runB c (grid0.coords t) _ _ _ _ _ _ _ _ _ _ (fun h => h0 ((hcond0 t).mp h)) (fun h => h1 ((hcond1 t).mp h)) (iblk m c 0 t) (iblk m c 1 t) (iblk m c 2 t) _ _) Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; afterwards every array of the pipeline holds what
    the write-backs of the proof data leave, and every other buffer what the host operations after the region compute
    from that. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run terminates without a fault and the two argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.PayIdeal.lean ====
/-
  One grid point's step read at an index, at the ideal instance. With x0 the point's [1024, 2048] block of the flattened
  `adj`, the row-block accumulator gains, at (r, d), the sum over the block's 2048 columns k of x0[r, k] times row
  2048·c + k of the repeated `s`; the column accumulator gains, at row 2048·c + q of its 8192 rows, the sum over the
  block's 1024 rows r of x0[r, q] times row (2048·core + 1024·ii) + r of `s`, and keeps its other rows. A change of
  float format is the identity on the extended reals and a matrix product into the zero accumulator is the plain sum.
-/
import proofs.«170085_j76536317215120_2_alg».proof.Proof.StepIdeal
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val

open Cert.KernelIdeal Cert.KernelIdeal.Gen Cert.KernelIdeal.Body
open Idealize.ShloMosaic Idealize.ShloMosaic.ValueIdx

/-- The product "block of adj (rows r, columns k) times rows k of the repeated s": contracts the block's columns. -/
abbrev DRow : DotDims S1024x2048 S2048x70 S1024x70 := dot_S1024x2048_S2048x70_S1024x70_1_0_0_1_n_n
/-- The product "block of adj transposed times rows r of s": contracts the block's rows. -/
abbrev DCol : DotDims S1024x2048 S1024x70 S2048x70 := dot_S1024x2048_S1024x70_S2048x70_0_0_1_1_n_n

theorem drow_lhs0 (j : S1024x70.Idx) (q : DRow.contr.Idx) : (DRow.lhsIdx j q 0).val = (j 0).val := by
  unfold DotDims.lhsIdx
  rw [dif_neg (show ¬(0 : Fin S1024x2048.rank) ∈ DRow.lhsBatch by decide), dif_pos (show (0 : Fin S1024x2048.rank) ∈ DRow.lhsNonContracting by decide)]
  rfl
theorem drow_lhs1 (j : S1024x70.Idx) (q : DRow.contr.Idx) : (DRow.lhsIdx j q 1).val = (q ⟨0, by decide⟩).val :=
  DRow.lhsIdx_val_of_single rfl j q
theorem drow_rhs0 (j : S1024x70.Idx) (q : DRow.contr.Idx) : (DRow.rhsIdx j q 0).val = (q ⟨0, by decide⟩).val :=
  DRow.rhsIdx_val_of_single rfl j q
theorem drow_rhs1 (j : S1024x70.Idx) (q : DRow.contr.Idx) : (DRow.rhsIdx j q 1).val = (j 1).val := by
  unfold DotDims.rhsIdx
  rw [dif_neg (show ¬(1 : Fin S2048x70.rank) ∈ DRow.rhsBatch by decide), dif_pos (show (1 : Fin S2048x70.rank) ∈ DRow.rhsNonContracting by decide)]
  rfl

theorem dcol_lhs0 (j : S2048x70.Idx) (q : DCol.contr.Idx) : (DCol.lhsIdx j q 0).val = (q ⟨0, by decide⟩).val :=
  DCol.lhsIdx_val_of_single rfl j q
theorem dcol_lhs1 (j : S2048x70.Idx) (q : DCol.contr.Idx) : (DCol.lhsIdx j q 1).val = (j 0).val := by
  unfold DotDims.lhsIdx
  rw [dif_neg (show ¬(1 : Fin S1024x2048.rank) ∈ DCol.lhsBatch by decide), dif_pos (show (1 : Fin S1024x2048.rank) ∈ DCol.lhsNonContracting by decide)]
  rfl
theorem dcol_rhs0 (j : S2048x70.Idx) (q : DCol.contr.Idx) : (DCol.rhsIdx j q 0).val = (q ⟨0, by decide⟩).val :=
  DCol.rhsIdx_val_of_single rfl j q
theorem dcol_rhs1 (j : S2048x70.Idx) (q : DCol.contr.Idx) : (DCol.rhsIdx j q 1).val = (j 1).val := by
  unfold DotDims.rhsIdx
  rw [dif_neg (show ¬(1 : Fin S1024x70.rank) ∈ DCol.rhsBatch by decide), dif_pos (show (1 : Fin S1024x70.rank) ∈ DCol.rhsNonContracting by decide)]
  rfl

/-- The row product into the zero accumulator, at (r, d): Σ_k a[r, k] · b[k, d]. -/
theorem matmul_row_apply (a : FVec Ideal S1024x2048 .bf16) (b : FVec Ideal S2048x70 .bf16) (r : Fin 1024) (d : Fin 70) :
    matmul DRow none a b (constant (F := Ideal) S1024x70 .f32 0x00000000#32) (ix2 r d) = ∑ k : Fin 2048, a (ix2 r k) * b (ix2 k d) := by
  refine (Ideal.matmul_constant_zero_apply DRow none a b (ix2 r d)).trans ?_
  rw [← Equiv.sum_comp (contrEquiv1 DRow 2048 rfl rfl).symm]
  refine Finset.sum_congr rfl fun k _ => ?_
  have hk := contrEquiv1_symm_val DRow 2048 rfl rfl k
  have el : DRow.lhsIdx (ix2 r d) ((contrEquiv1 DRow 2048 rfl rfl).symm k) = ix2 r k := funext fun x => Fin.ext (by
    match x with
    | ⟨0, _⟩ => exact drow_lhs0 _ _
    | ⟨1, _⟩ => exact (drow_lhs1 _ _).trans hk)
  have er : DRow.rhsIdx (ix2 r d) ((contrEquiv1 DRow 2048 rfl rfl).symm k) = ix2 k d := funext fun x => Fin.ext (by
    match x with
    | ⟨0, _⟩ => exact (drow_rhs0 _ _).trans hk
    | ⟨1, _⟩ => exact drow_rhs1 _ _)
  rw [el, er]

/-- The column product into the zero accumulator, at (q, d): Σ_r a[r, q] · b[r, d]. -/
theorem matmul_col_apply (a : FVec Ideal S1024x2048 .bf16) (b : FVec Ideal S1024x70 .bf16) (q : Fin 2048) (d : Fin 70) :
    matmul DCol none a b (constant (F := Ideal) S2048x70 .f32 0x00000000#32) (ix2 q d) = ∑ r : Fin 1024, a (ix2 r q) * b (ix2 r d) := by
  refine (Ideal.matmul_constant_zero_apply DCol none a b (ix2 q d)).trans ?_
  rw [← Equiv.sum_comp (contrEquiv1 DCol 1024 rfl rfl).symm]
  refine Finset.sum_congr rfl fun k _ => ?_
  have hk := contrEquiv1_symm_val DCol 1024 rfl rfl k
  have el : DCol.lhsIdx (ix2 q d) ((contrEquiv1 DCol 1024 rfl rfl).symm k) = ix2 k q := funext fun x => Fin.ext (by
    match x with
    | ⟨0, _⟩ => exact (dcol_lhs0 _ _).trans hk
    | ⟨1, _⟩ => exact dcol_lhs1 _ _)
  have er : DCol.rhsIdx (ix2 q d) ((contrEquiv1 DCol 1024 rfl rfl).symm k) = ix2 k d := funext fun x => Fin.ext (by
    match x with
    | ⟨0, _⟩ => exact (dcol_rhs0 _ _).trans hk
    | ⟨1, _⟩ => exact dcol_rhs1 _ _)
  rw [el, er]

/-- The row-block accumulator's step at (r, d). -/
theorem step3_apply (i : grid0.Coords) (x0 : Vec Ideal S1024x2048 .f32) (x2 : Vec Ideal S8192x70 .f32) (y3 : Vec Ideal S1024x70 .f32)
    (r : Fin 1024) (d : Fin 70) :
    step3 (F := Ideal) i x0 x2 y3 (ix2 r d) = y3 (ix2 r d) + ∑ k : Fin 2048, x0 (ix2 r k) * x2 ((rowsRep i).idx (ix2 k d)) := by
  unfold step3 k0_pay5 k0_pay4
  dsimp only
  rw [addf_apply, shapeCast_self]
  refine congrArg (y3 (ix2 r d) + ·) ?_
  refine (matmul_row_apply _ _ r d).trans (Finset.sum_congr rfl fun k _ => ?_)
  rw [truncf_apply, truncf_apply, shapeCast_self, shapeCast_self]

/-! ## The column accumulator's step -/

theorem off3_0 (i : grid0.Coords) : k0_off3 i 0 = 0 := congrFun (k0_off3_eq i) 0
theorem off3_1 (i : grid0.Coords) : k0_off3 i 1 = 2048 * (i 2).val := congrFun (k0_off3_eq i) 1
theorem off3_2 (i : grid0.Coords) : k0_off3 i 2 = 0 := congrFun (k0_off3_eq i) 2
theorem off1_0 (i : grid0.Coords) : k0_off1 i 0 = 2048 * (i 0).val + 1024 * (i 1).val := congrFun (k0_off1_eq i) 0
theorem off1_1 (i : grid0.Coords) : k0_off1 i 1 = 0 := congrFun (k0_off1_eq i) 1
theorem off2_0 (i : grid0.Coords) : k0_off2 i 0 = 2048 * (i 2).val := congrFun (k0_off2_eq i) 0
theorem off2_1 (i : grid0.Coords) : k0_off2 i 1 = 0 := congrFun (k0_off2_eq i) 1

/-- Inside the point's column block, at row 2048·c + q', the column accumulator gains Σ_r x0[r, q'] · (row r of the
    row block's rows of s). -/
theorem step4_in (i : grid0.Coords) (x0 : Vec Ideal S1024x2048 .f32) (x1 : Vec Ideal S4096x70 .f32) (y4 : Vec Ideal S1x8192x70 .f32)
    (z : Fin 1) (q : Fin 8192) (q' : Fin 2048) (d : Fin 70) (hq : q.val = 2048 * (i 2).val + q'.val) :
    step4 (F := Ideal) i x0 x1 y4 (ix3 z q d) = y4 (ix3 z q d) + ∑ r : Fin 1024, x0 (ix2 r q') * x1 ((rowsS i).idx (ix2 r d)) := by
  have h0 := off3_0 i; have h1 := off3_1 i; have h2 := off3_2 i
  have hz : z.val = 0 := by omega
  have h : ∀ a, (k0_off3 i) a ≤ ((ix3 z q d : S1x8192x70.Idx) a).val ∧ ((ix3 z q d : S1x8192x70.Idx) a).val < (k0_off3 i) a + S1x2048x70.size a := by
    intro a
    match a with
    | ⟨0, _⟩ => show k0_off3 i 0 ≤ z.val ∧ z.val < k0_off3 i 0 + 1; omega
    | ⟨1, _⟩ => show k0_off3 i 1 ≤ q.val ∧ q.val < k0_off3 i 1 + 2048; have := q'.isLt; omega
    | ⟨2, _⟩ => show k0_off3 i 2 ≤ d.val ∧ d.val < k0_off3 i 2 + 70; have := d.isLt; omega
  unfold step4 putRows
  rw [dif_pos h]
  have eL : Rect.unitLocal (s := S1x8192x70) (off := k0_off3 i) (size := S1x2048x70.size) (ix3 z q d) h = (ix3 (0 : Fin 1) q' d : S1x2048x70.Idx) :=
    funext fun a => Fin.ext (by
      rw [Rect.unitLocal_val]
      match a with
      | ⟨0, _⟩ => show z.val - k0_off3 i 0 = 0; omega
      | ⟨1, _⟩ => show q.val - k0_off3 i 1 = q'.val; omega
      | ⟨2, _⟩ => show d.val - k0_off3 i 2 = d.val; omega)
  rw [eL]
  unfold k0_pay1 k0_pay6 k0_pay4
  dsimp only
  rw [shapeCast_ab_1ab_apply, addf_apply, shapeCast_1ab_ab_apply]
  have e4 : (rowsAcc i).idx (ix3 (0 : Fin 1) q' d : S1x2048x70.Idx) = (ix3 z q d : S1x8192x70.Idx) := funext fun a => Fin.ext (by
    match a with
    | ⟨0, _⟩ => show k0_off3 i 0 + 1 * 0 = z.val; omega
    | ⟨1, _⟩ => show k0_off3 i 1 + 1 * q'.val = q.val; omega
    | ⟨2, _⟩ => show k0_off3 i 2 + 1 * d.val = d.val; omega)
  refine congrArg₂ (· + ·) (congrArg y4 e4) ?_
  refine (matmul_col_apply _ _ q' d).trans (Finset.sum_congr rfl fun r _ => ?_)
  rw [truncf_apply, truncf_apply, shapeCast_self]

/-- Outside the point's column block the column accumulator keeps its entry. -/
theorem step4_out (i : grid0.Coords) (x0 : Vec Ideal S1024x2048 .f32) (x1 : Vec Ideal S4096x70 .f32) (y4 : Vec Ideal S1x8192x70 .f32)
    (z : Fin 1) (q : Fin 8192) (d : Fin 70) (hq : q.val < 2048 * (i 2).val ∨ 2048 * (i 2).val + 2048 ≤ q.val) :
    step4 (F := Ideal) i x0 x1 y4 (ix3 z q d) = y4 (ix3 z q d) := by
  have h1 := off3_1 i
  unfold step4 putRows
  rw [dif_neg]
  intro h
  have := h 1
  change k0_off3 i 1 ≤ q.val ∧ q.val < k0_off3 i 1 + 2048 at this
  omega

end Cert.KernelIdeal.Val

end
-- ==== Proof.NatForm.lean ====
/-
  Arrays read at natural-number coordinates: the array's entry where every coordinate is in range, zero elsewhere.
  Tiled sums are then sums over `Finset.range`, and a coordinate "block·size + offset" is plain arithmetic.
-/
import Idealize.ShloMosaic.PureOps.Ideal
import Idealize.ShloMosaic.Lib.ValueIdx

noncomputable section

open scoped BigOperators

namespace Cert.NatForm

open Idealize.ShloMosaic Idealize.ShloMosaic.ValueIdx

/-- A rank-2 array at natural-number coordinates. -/
def ext2 {n0 n1 : ℕ} (f : (⟨2, ![n0, n1]⟩ : Shape).Idx → EReal) (a b : ℕ) : EReal :=
  if h : a < n0 ∧ b < n1 then f (ix2 ⟨a, h.1⟩ ⟨b, h.2⟩) else 0

/-- A rank-3 array at natural-number coordinates. -/
def ext3 {n0 n1 n2 : ℕ} (f : (⟨3, ![n0, n1, n2]⟩ : Shape).Idx → EReal) (a b c : ℕ) : EReal :=
  if h : a < n0 ∧ b < n1 ∧ c < n2 then f (ix3 ⟨a, h.1⟩ ⟨b, h.2.1⟩ ⟨c, h.2.2⟩) else 0

/-- In range, the rank-2 reading is the array's entry. -/
theorem ext2_of_lt {n0 n1 : ℕ} (f : (⟨2, ![n0, n1]⟩ : Shape).Idx → EReal) {a b : ℕ} (ha : a < n0) (hb : b < n1) :
    ext2 f a b = f (ix2 ⟨a, ha⟩ ⟨b, hb⟩) := dif_pos ⟨ha, hb⟩

/-- In range, the rank-3 reading is the array's entry. -/
theorem ext3_of_lt {n0 n1 n2 : ℕ} (f : (⟨3, ![n0, n1, n2]⟩ : Shape).Idx → EReal) {a b c : ℕ} (ha : a < n0) (hb : b < n1) (hc : c < n2) :
    ext3 f a b c = f (ix3 ⟨a, ha⟩ ⟨b, hb⟩ ⟨c, hc⟩) := dif_pos ⟨ha, hb, hc⟩

theorem ext2_fin {n0 n1 : ℕ} (f : (⟨2, ![n0, n1]⟩ : Shape).Idx → EReal) (a : Fin n0) (b : Fin n1) :
    ext2 f a.val b.val = f (ix2 a b) := ext2_of_lt f a.isLt b.isLt

theorem ext3_fin {n0 n1 n2 : ℕ} (f : (⟨3, ![n0, n1, n2]⟩ : Shape).Idx → EReal) (a : Fin n0) (b : Fin n1) (c : Fin n2) :
    ext3 f a.val b.val c.val = f (ix3 a b c) := ext3_of_lt f a.isLt b.isLt c.isLt

end Cert.NatForm

end
-- ==== Proof.AccIdeal.lean ====
/-
  What the two accumulators hold after each grid point, in closed form at the ideal instance. Write A[i, q] for the
  flattened `adj` (A[i, 2j + k] = adj[i, j, k]), B[q, d] for the repeated `s` (B[2j + k, d] = s[j, d]) and S for `s`, all
  at natural-number coordinates. Point t = 8·core + 4·ii + c works on row block t / 4 (rows 1024·(t / 4) + r) and column
  block c = t % 4 (columns 2048·c + k).
  * After point t the row-block accumulator holds, at (r, d), the sum over the column blocks b ≤ c done so far:
      Σ_{b ≤ c} Σ_{k < 2048} A[1024·(t/4) + r, 2048·b + k] · B[2048·b + k, d].
  * After point t the per-core column accumulator holds, at row q, the sum over the row blocks of the core that have
    reached q's column block: both blocks ii' < ii, and block ii itself when q's column block is ≤ c:
      Σ_{b < cnt t q} Σ_{r < 1024} A[(2·core + b)·1024 + r, q] · S[(2·core + b)·1024 + r, d].
  Both by induction on the point, from the recursion of the proof data and the step read at an index.
-/
import proofs.«170085_j76536317215120_2_alg».proof.Proof.DataIdeal
import proofs.«170085_j76536317215120_2_alg».proof.Proof.PayIdeal
import proofs.«170085_j76536317215120_2_alg».proof.Proof.NatForm

set_option maxRecDepth 16384

noncomputable section

open scoped BigOperators

namespace Cert.KernelIdeal.Val

open Cert.KernelIdeal Cert.KernelIdeal.Gen Cert.KernelIdeal.Body Cert.NatForm
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (c : Dev nD)

/-- The flattened `adj` as the region finds it, at natural coordinates. -/
def A (i q : ℕ) : EReal := ext2 (V m c main_v0 : S4096x8192.Idx → EReal) i q
/-- The repeated `s` as the region finds it, at natural coordinates. -/
def B (q d : ℕ) : EReal := ext2 (V m c main_v2 : S8192x70.Idx → EReal) q d
/-- `s` as the region finds it, at natural coordinates. -/
def S (i d : ℕ) : EReal := ext2 (V m c main_arg1 : S4096x70.Idx → EReal) i d

/-! ## The grid's coordinates and the windows' block indices, decided over the sixteen points -/

theorem coords_facts : ∀ t : Fin cfg0.N, (grid0.coords t 0).val = t.val / 8 ∧ (grid0.coords t 1).val = t.val / 4 % 2 ∧ (grid0.coords t 2).val = t.val % 4 :=
  (by decide +kernel : ∀ t : Fin grid0.N, (grid0.coords t 0).val = t.val / 8 ∧ (grid0.coords t 1).val = t.val / 4 % 2 ∧ (grid0.coords t 2).val = t.val % 4)

theorem idx_facts : ∀ t : Fin cfg0.N, win0_0.index t (0 : Fin 2) = t.val / 4 ∧ win0_0.index t (1 : Fin 2) = t.val % 4
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val / 4 ∧ win0_3.index t (1 : Fin 2) = 0
    ∧ win0_4.index t (0 : Fin 3) = t.val / 8 ∧ win0_4.index t (1 : Fin 3) = 0 ∧ win0_4.index t (2 : Fin 3) = 0 :=
  (by decide +kernel : ∀ t : Fin grid0.N, win0_0.index t (0 : Fin 2) = t.val / 4 ∧ win0_0.index t (1 : Fin 2) = t.val % 4
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val / 4 ∧ win0_3.index t (1 : Fin 2) = 0
    ∧ win0_4.index t (0 : Fin 3) = t.val / 8 ∧ win0_4.index t (1 : Fin 3) = 0 ∧ win0_4.index t (2 : Fin 3) = 0)

theorem lt16 (t : Fin cfg0.N) : t.val < 16 := lt_of_lt_of_eq t.isLt (show cfg0.N = 16 from N_0)

/-! ## The input blocks at a point, read at an index -/

/-- The point's block of the flattened `adj`: rows 1024·(t/4) + r, columns 2048·(t%4) + k. -/
theorem iblk0_apply (t : Fin cfg0.N) (r : Fin 1024) (k : Fin 2048) :
    iblk m c 0 t (ix2 r k) = A m c (1024 * (t.val / 4) + r.val) (t.val % 4 * 2048 + k.val) := by
  obtain ⟨e0, e1, -⟩ := idx_facts t
  have hN := lt16 t
  unfold A
  rw [ext2_of_lt _ (by omega) (by omega)]
  show (V m c main_v0 : S4096x8192.Idx → EReal) (((cfg0.win 0).blk t).view.emb (ix2 r k)) = _
  refine congrArg _ (funext fun a => Fin.ext ?_)
  match a with
  | ⟨0, _⟩ => show win0_0.index t (0 : Fin 2) * 1024 + 1 * r.val = 1024 * (t.val / 4) + r.val; omega
  | ⟨1, _⟩ => show win0_0.index t (1 : Fin 2) * 2048 + 1 * k.val = t.val % 4 * 2048 + k.val; omega

/-- The rows of the repeated `s` the point's column block meets: rows 2048·(t%4) + k of the whole array. -/
theorem iblk2_rows (t : Fin cfg0.N) (k : Fin 2048) (d : Fin 70) :
    iblk m c 2 t ((rowsRep (grid0.coords t)).idx (ix2 k d)) = B m c (t.val % 4 * 2048 + k.val) d.val := by
  obtain ⟨-, -, -, -, e0, e1, -⟩ := idx_facts t
  obtain ⟨-, -, g2⟩ := coords_facts t
  have o0 := off2_0 (grid0.coords t); have o1 := off2_1 (grid0.coords t)
  have hN := lt16 t
  unfold B
  rw [ext2_of_lt _ (by omega) d.isLt]
  show (V m c main_v2 : S8192x70.Idx → EReal) (((cfg0.win 2).blk t).view.emb ((rowsRep (grid0.coords t)).idx (ix2 k d))) = _
  refine congrArg _ (funext fun a => Fin.ext ?_)
  match a with
  | ⟨0, _⟩ => show win0_2.index t (0 : Fin 2) * 8192 + 1 * (k0_off2 (grid0.coords t) 0 + 1 * k.val) = t.val % 4 * 2048 + k.val; omega
  | ⟨1, _⟩ => show win0_2.index t (1 : Fin 2) * 70 + 1 * (k0_off2 (grid0.coords t) 1 + 1 * d.val) = d.val; omega

/-- The rows of `s` the point's row block meets: rows 1024·(t/4) + r of the whole array. -/
theorem iblk1_rows (t : Fin cfg0.N) (r : Fin 1024) (d : Fin 70) :
    iblk m c 1 t ((rowsS (grid0.coords t)).idx (ix2 r d)) = S m c ((t.val / 8 * 2 + t.val / 4 % 2) * 1024 + r.val) d.val := by
  obtain ⟨-, -, e0, e1, -⟩ := idx_facts t
  obtain ⟨g0, g1, -⟩ := coords_facts t
  have o0 := off1_0 (grid0.coords t); have o1 := off1_1 (grid0.coords t)
  have hN := lt16 t
  unfold S
  rw [ext2_of_lt _ (by omega) d.isLt]
  show (V m c main_arg1 : S4096x70.Idx → EReal) (((cfg0.win 1).blk t).view.emb ((rowsS (grid0.coords t)).idx (ix2 r d))) = _
  refine congrArg _ (funext fun a => Fin.ext ?_)
  match a with
  | ⟨0, _⟩ => show win0_1.index t (0 : Fin 2) * 4096 + 1 * (k0_off1 (grid0.coords t) 0 + 1 * r.val) = (t.val / 8 * 2 + t.val / 4 % 2) * 1024 + r.val; omega
  | ⟨1, _⟩ => show win0_1.index t (1 : Fin 2) * 70 + 1 * (k0_off1 (grid0.coords t) 1 + 1 * d.val) = d.val; omega

/-- The zero block the row-block accumulator restarts from. -/
theorem zero3_apply (j : S1024x70.Idx) : k0_pay2 (F := Ideal) j = 0 := Ideal.ofBits_zero_f32
/-- The zero block the column accumulator restarts from. -/
theorem zero4_apply (z : Fin 1) (q : Fin 8192) (d : Fin 70) : k0_pay3 (F := Ideal) (ix3 z q d) = 0 := by
  unfold k0_pay3
  rw [shapeCast_ab_1ab_apply]
  exact Ideal.ofBits_zero_f32

/-! ## The row-block accumulator -/

/-- A sum over a block's 2048 columns whose terms are known at natural coordinates, as a sum over a range. -/
theorem row_term (x0 : Vec Ideal S1024x2048 .f32) (x2 : Vec Ideal S8192x70 .f32) (i : grid0.Coords) (r : Fin 1024) (d : Fin 70) (f g : ℕ → EReal)
    (h0 : ∀ k : Fin 2048, x0 (ix2 r k) = f k.val) (h2 : ∀ k : Fin 2048, x2 ((rowsRep i).idx (ix2 k d)) = g k.val) :
    ∑ k : Fin 2048, x0 (ix2 r k) * x2 ((rowsRep i).idx (ix2 k d)) = ∑ k ∈ Finset.range 2048, f k * g k := by
  rw [Finset.sum_range]
  exact Finset.sum_congr rfl fun k _ => by rw [h0 k, h2 k]

/-- One point's step of the row-block accumulator, at (r, d). -/
theorem acc3_step (t : Fin cfg0.N) (y3 : Vec Ideal S1024x70 .f32) (r : Fin 1024) (d : Fin 70) :
    step3 (F := Ideal) (grid0.coords t) (iblk m c 0 t) (iblk m c 2 t) y3 (ix2 r d)
      = y3 (ix2 r d) + ∑ k ∈ Finset.range 2048, A m c (1024 * (t.val / 4) + r.val) (t.val % 4 * 2048 + k) * B m c (t.val % 4 * 2048 + k) d.val :=
  (step3_apply (grid0.coords t) (iblk m c 0 t) (iblk m c 2 t) y3 r d).trans (congrArg (y3 (ix2 r d) + ·)
    (row_term (iblk m c 0 t) (iblk m c 2 t) (grid0.coords t) r d
      (fun k => A m c (1024 * (t.val / 4) + r.val) (t.val % 4 * 2048 + k)) (fun k => B m c (t.val % 4 * 2048 + k) d.val)
      (fun k => iblk0_apply m c t r k) (fun k => iblk2_rows m c t k d)))

/-- After point n the row-block accumulator holds the sum over the column blocks b ≤ n % 4 done so far. -/
theorem acc3_eq : ∀ (n : ℕ) (hn : n < cfg0.N) (r : Fin 1024) (d : Fin 70),
    (outs m c n hn).1 (ix2 r d) = ∑ b ∈ Finset.range (n % 4 + 1), ∑ k ∈ Finset.range 2048,
        A m c (1024 * (n / 4) + r.val) (b * 2048 + k) * B m c (b * 2048 + k) d.val := by
  intro n
  induction n using Nat.strong_induction_on with
  | _ n ih =>
    intro hn r d
    have hN : n < 16 := lt_of_lt_of_eq hn (show cfg0.N = 16 from N_0)
    refine (congrFun (outs_fst m c ⟨n, hn⟩) (ix2 r d)).trans ?_
    refine (acc3_step m c ⟨n, hn⟩ _ r d).trans ?_
    dsimp only
    by_cases h0 : n % 4 = 0
    · rw [if_pos h0, zero3_apply, zero_add, h0, Finset.sum_range_one]
    · rw [if_neg h0, ih (n - 1) (by omega) (pred_lt ⟨n, hn⟩) r d]
      have e1 : (n - 1) / 4 = n / 4 := by omega
      have e2 : (n - 1) % 4 + 1 = n % 4 := by omega
      rw [e1, e2]
      exact (Finset.sum_range_succ _ _).symm

/-! ## The per-core column accumulator -/

/-- How many of the core's row blocks have reached column q after point t: the blocks before ii = t / 4 % 2, and block
    ii itself when q's column block is not after c = t % 4. -/
def cnt (t q : ℕ) : ℕ := t / 4 % 2 + (if q / 2048 ≤ t % 4 then 1 else 0)

/-- A sum over a block's 1024 rows whose terms are known at natural coordinates, as a sum over a range. -/
theorem col_term (x0 : Vec Ideal S1024x2048 .f32) (x1 : Vec Ideal S4096x70 .f32) (i : grid0.Coords) (q' : Fin 2048) (d : Fin 70) (f g : ℕ → EReal)
    (h0 : ∀ r : Fin 1024, x0 (ix2 r q') = f r.val) (h1 : ∀ r : Fin 1024, x1 ((rowsS i).idx (ix2 r d)) = g r.val) :
    ∑ r : Fin 1024, x0 (ix2 r q') * x1 ((rowsS i).idx (ix2 r d)) = ∑ r ∈ Finset.range 1024, f r * g r := by
  rw [Finset.sum_range]
  exact Finset.sum_congr rfl fun r _ => by rw [h0 r, h1 r]

/-- One point's step of the column accumulator at a row of the point's column block. -/
theorem acc4_step_in (t : Fin cfg0.N) (y4 : Vec Ideal S1x8192x70 .f32) (z : Fin 1) (q : Fin 8192) (d : Fin 70) (hq : q.val / 2048 = t.val % 4) :
    step4 (F := Ideal) (grid0.coords t) (iblk m c 0 t) (iblk m c 1 t) y4 (ix3 z q d)
      = y4 (ix3 z q d) + ∑ r ∈ Finset.range 1024, A m c ((t.val / 8 * 2 + t.val / 4 % 2) * 1024 + r) q.val
          * S m c ((t.val / 8 * 2 + t.val / 4 % 2) * 1024 + r) d.val := by
  obtain ⟨-, -, g2⟩ := coords_facts t
  have hq8 := q.isLt
  have hlt : q.val - 2048 * (t.val % 4) < 2048 := by omega
  refine (step4_in (grid0.coords t) (iblk m c 0 t) (iblk m c 1 t) y4 z q ⟨q.val - 2048 * (t.val % 4), hlt⟩ d (by rw [g2]; dsimp only; omega)).trans ?_
  refine congrArg (y4 (ix3 z q d) + ·) (col_term (iblk m c 0 t) (iblk m c 1 t) (grid0.coords t) ⟨q.val - 2048 * (t.val % 4), hlt⟩ d
    (fun r => A m c ((t.val / 8 * 2 + t.val / 4 % 2) * 1024 + r) q.val) (fun r => S m c ((t.val / 8 * 2 + t.val / 4 % 2) * 1024 + r) d.val)
    (fun r => ?_) (fun r => iblk1_rows m c t r d))
  refine (iblk0_apply m c t r ⟨q.val - 2048 * (t.val % 4), hlt⟩).trans ?_
  have e1 : 1024 * (t.val / 4) + r.val = (t.val / 8 * 2 + t.val / 4 % 2) * 1024 + r.val := by omega
  have e2 : t.val % 4 * 2048 + (q.val - 2048 * (t.val % 4)) = q.val := by omega
  dsimp only
  rw [e1, e2]

/-- One point's step of the column accumulator at a row outside the point's column block. -/
theorem acc4_step_out (t : Fin cfg0.N) (y4 : Vec Ideal S1x8192x70 .f32) (z : Fin 1) (q : Fin 8192) (d : Fin 70) (hq : ¬q.val / 2048 = t.val % 4) :
    step4 (F := Ideal) (grid0.coords t) (iblk m c 0 t) (iblk m c 1 t) y4 (ix3 z q d) = y4 (ix3 z q d) := by
  obtain ⟨-, -, g2⟩ := coords_facts t
  exact step4_out (grid0.coords t) (iblk m c 0 t) (iblk m c 1 t) y4 z q d (by rw [g2]; omega)

/-- After point n the column accumulator holds, at row q, the sum over the core's row blocks that have reached q. -/
theorem acc4_eq : ∀ (n : ℕ) (hn : n < cfg0.N) (z : Fin 1) (q : Fin 8192) (d : Fin 70),
    (outs m c n hn).2 (ix3 z q d) = ∑ b ∈ Finset.range (cnt n q.val), ∑ r ∈ Finset.range 1024,
        A m c ((n / 8 * 2 + b) * 1024 + r) q.val * S m c ((n / 8 * 2 + b) * 1024 + r) d.val := by
  intro n
  induction n using Nat.strong_induction_on with
  | _ n ih =>
    intro hn z q d
    have hN : n < 16 := lt_of_lt_of_eq hn (show cfg0.N = 16 from N_0)
    have hq8 := q.isLt
    refine (congrFun (outs_snd m c ⟨n, hn⟩) (ix3 z q d)).trans ?_
    by_cases hq : q.val / 2048 = n % 4
    · refine (acc4_step_in m c ⟨n, hn⟩ _ z q d hq).trans ?_
      dsimp only
      by_cases h8 : n % 8 = 0
      · have hc : cnt n q.val = 1 := by unfold cnt; rw [if_pos (by omega)]; omega
        have hi : n / 4 % 2 = 0 := by omega
        rw [if_pos h8, zero4_apply, zero_add, hc, Finset.sum_range_one, hi]
      · have e8 : (n - 1) / 8 = n / 8 := by omega
        have hc : cnt n q.val = cnt (n - 1) q.val + 1 := by unfold cnt; split_ifs <;> omega
        have hb : cnt (n - 1) q.val = n / 4 % 2 := by unfold cnt; split_ifs <;> omega
        rw [if_neg h8, ih (n - 1) (by omega) (pred_lt ⟨n, hn⟩) z q d, e8, hc]
        refine Eq.trans ?_ (Finset.sum_range_succ _ _).symm
        rw [hb]
    · refine (acc4_step_out m c ⟨n, hn⟩ _ z q d hq).trans ?_
      dsimp only
      by_cases h8 : n % 8 = 0
      · have hc : cnt n q.val = 0 := by unfold cnt; rw [if_neg (by omega)]; omega
        rw [if_pos h8, zero4_apply, hc, Finset.range_zero, Finset.sum_empty]
      · have e8 : (n - 1) / 8 = n / 8 := by omega
        have hc : cnt n q.val = cnt (n - 1) q.val := by unfold cnt; split_ifs <;> omega
        rw [if_neg h8, ih (n - 1) (by omega) (pred_lt ⟨n, hn⟩) z q d, e8, hc]

end Cert.KernelIdeal.Val

end
-- ==== Proof.Spec.lean ====
/-
  The two results as functions of the argument arrays, index by index, on the extended reals.
  With `adj : [4096, 4096, 2]` and `s : [4096, 70]`:
    s_out[i, d] = Σ_j Σ_k adj[i, j, k] · s[j, d]        (row i of adj against the rows of s)
    s_in [j, d] = Σ_k Σ_i adj[i, j, k] · s[i, d]        (column j of adj against the rows of s)
  Both are written with every product adj·s standing alone under the sums: the form in which the
  tiled computation arrives by regrouping sums only. The reference sums the channel axis k first and
  multiplies afterwards; the two agree where the entries are real numbers, by distributivity.
-/
import Idealize.ShloMosaic.PureOps.Ideal
import Idealize.ShloMosaic.Lib.ValueIdx

noncomputable section

open scoped BigOperators

namespace Cert.Spec

open Idealize.ShloMosaic Idealize.ShloMosaic.ValueIdx

/-- The shape of `adj`. -/
abbrev SA : Shape := ⟨3, ![4096, 4096, 2]⟩
/-- The shape of `s` and of both results. -/
abbrev SS : Shape := ⟨2, ![4096, 70]⟩

/-- s_out[i, d] = Σ_j Σ_k adj[i, j, k] · s[j, d]. -/
def sOut (adj : SA.Idx → EReal) (s : SS.Idx → EReal) : SS.Idx → EReal :=
  fun i => ∑ j : Fin 4096, ∑ k : Fin 2, adj (ix3 (i 0) j k) * s (ix2 j (i 1))

/-- s_in[j, d] = Σ_k Σ_i adj[i, j, k] · s[i, d]. -/
def sIn (adj : SA.Idx → EReal) (s : SS.Idx → EReal) : SS.Idx → EReal :=
  fun i => ∑ k : Fin 2, ∑ r : Fin 4096, adj (ix3 r (i 0) k) * s (ix2 r (i 1))

end Cert.Spec

end
-- ==== Proof.RefRegroup.lean ====
/-
  Regrouping of sums: from tiled sums over natural-number coordinates to the specification.
  A sum over the first n · m natural numbers is the sum over a < n of the sums over b < m at the
  position a · m + b: the range is cut into n consecutive stretches of length m. Nothing else is used
  below. The specification's s_out pairs the column index j < 4096 and the channel k < 2 of `adj`;
  numbering the pairs q = 2 j + k (so j = q / 2, k = q mod 2) makes it one sum over q < 8192. Its s_in
  is a sum over the channel and the row as they stand. Rows 0 .. 4095 cut into 2 · 2 stretches of 1024,
  and positions 0 .. 8191 cut into 4 stretches of 2048, are the same cut applied to a tiling.
  Only additions are reordered, so every statement holds on the extended reals with no finiteness.
-/
import proofs.«170085_j76536317215120_2_alg».proof.Proof.Spec
import proofs.«170085_j76536317215120_2_alg».proof.Proof.NatForm
import Mathlib.Algebra.BigOperators.Fin

noncomputable section

open scoped BigOperators

namespace Cert.RefSide

open Idealize.ShloMosaic Idealize.ShloMosaic.ValueIdx Cert.NatForm

/-- The first n · m natural numbers, cut into n consecutive stretches of length m. -/
theorem sum_range_mul {M : Type*} [AddCommMonoid M] (g : ℕ → M) (n m : ℕ) :
    ∑ q ∈ Finset.range (n * m), g q = ∑ a ∈ Finset.range n, ∑ b ∈ Finset.range m, g (a * m + b) := by
  induction n with
  | zero => simp
  | succ n ih => rw [add_one_mul, Finset.sum_range_add, ih, Finset.sum_range_succ]

/-- s_out at (i, d) as one sum over the positions q = 2 j + k of row i of `adj`, the pair (j, k) read back
    as (q / 2, q mod 2). -/
theorem sOut_nat (adj : Cert.Spec.SA.Idx → EReal) (s : Cert.Spec.SS.Idx → EReal) (i : Fin 4096) (d : Fin 70) :
    Cert.Spec.sOut adj s (ix2 i d)
      = ∑ q ∈ Finset.range 8192, ext3 adj i.val (q / 2) (q % 2) * ext2 s (q / 2) d.val := by
  show ∑ j : Fin 4096, ∑ k : Fin 2, adj (ix3 i j k) * s (ix2 j d) = _
  rw [show (8192 : ℕ) = 4096 * 2 from rfl, sum_range_mul, Finset.sum_range]
  refine Finset.sum_congr rfl fun j _ => ?_
  rw [Finset.sum_range]
  refine Finset.sum_congr rfl fun k _ => ?_
  have hk : k.val < 2 := k.isLt
  have h1 : (j.val * 2 + k.val) / 2 = j.val := by omega
  have h2 : (j.val * 2 + k.val) % 2 = k.val := by omega
  rw [h1, h2, ext3_fin, ext2_fin]

/-- s_in at (j, d) as the sum over the channel and the row at natural-number coordinates. -/
theorem sIn_nat (adj : Cert.Spec.SA.Idx → EReal) (s : Cert.Spec.SS.Idx → EReal) (j : Fin 4096) (d : Fin 70) :
    Cert.Spec.sIn adj s (ix2 j d)
      = ∑ k ∈ Finset.range 2, ∑ i ∈ Finset.range 4096, ext3 adj i j.val k * ext2 s i d.val := by
  show ∑ k : Fin 2, ∑ r : Fin 4096, adj (ix3 r j k) * s (ix2 r d) = _
  rw [Finset.sum_range]
  refine Finset.sum_congr rfl fun k _ => ?_
  rw [Finset.sum_range]
  refine Finset.sum_congr rfl fun r _ => ?_
  rw [ext3_fin, ext2_fin]

/-- Rows 0 .. 4095 as 2 · 2 stretches of 1024 rows: stretch (co, b) starts at row (2 co + b) · 1024. -/
theorem sum_rows_tiled {M : Type*} [AddCommMonoid M] (g : ℕ → M) :
    ∑ co ∈ Finset.range 2, ∑ b ∈ Finset.range 2, ∑ r ∈ Finset.range 1024, g ((co * 2 + b) * 1024 + r)
      = ∑ i ∈ Finset.range 4096, g i := by
  rw [show (4096 : ℕ) = 2 * 2 * 1024 from rfl, sum_range_mul g (2 * 2) 1024,
    sum_range_mul (fun a => ∑ r ∈ Finset.range 1024, g (a * 1024 + r)) 2 2]

/-- Positions 0 .. 8191 as 4 stretches of 2048: stretch b starts at position b · 2048. -/
theorem sum_cols_tiled {M : Type*} [AddCommMonoid M] (g : ℕ → M) :
    ∑ b ∈ Finset.range 4, ∑ k ∈ Finset.range 2048, g (b * 2048 + k) = ∑ q ∈ Finset.range 8192, g q :=
  (sum_range_mul g 4 2048).symm

end Cert.RefSide

end
-- ==== Proof.FinalIdeal.lean ====
/-
  The kernel's two results at the ideal instance, as functions of the argument arrays.
  * The host operations before the region only re-lay the arguments: the flattened `adj` is A[i, q] = adj[i, q/2, q%2]
    and the repeated `s` is B[q, d] = s[q/2, d].
  * The row-block accumulator is written back after the last column block (points t ≡ 3 mod 4), one block of 1024 rows
    per (core, ii); those sixteen-over-four blocks tile the s_out array, which so ends at
      s_out[i, d] = Σ_{b < 4} Σ_{k < 2048} A[i, 2048·b + k] · B[2048·b + k, d].
  * The per-core column accumulator is written back after the core's last point (t ≡ 7 mod 8), one slab per core:
      tmp[core, q, d] = Σ_{b < 2} Σ_{r < 1024} A[(2·core + b)·1024 + r, q] · S[(2·core + b)·1024 + r, d].
  * The host operations after the region add the two cores' slabs and then the two rows 2j, 2j + 1 of the sum.
  Regrouping the tiled sums (sums only: no finiteness is used here) gives the specification's s_out and s_in.
-/
import proofs.«170085_j76536317215120_2_alg».proof.Proof.AccIdeal
import proofs.«170085_j76536317215120_2_alg».proof.Proof.Spec
import proofs.«170085_j76536317215120_2_alg».proof.Proof.RefRegroup
import Idealize.ShloMosaic.Lib.StableHlo.Run

set_option maxRecDepth 16384

noncomputable section

open scoped BigOperators

namespace Cert.KernelIdeal.Val

open Cert.KernelIdeal Cert.KernelIdeal.Gen Cert.KernelIdeal.Body Cert.NatForm
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (c : Dev nD)

/-! ## What the host operations before the region made of the arguments -/

/-- The flattened `adj` is `adj` reshaped. -/
theorem v0_eq : (V m c main_v0 : S4096x8192.Idx → EReal)
    = shapeCast S4096x8192 (m ((c : Thread nD τ).loc main_arg0)) shapeCasts_S4096x4096x2_S4096x8192 := by
  show StableHlo.after hostOps0 (fun b => m (c, b)) (Proc.devRef .tc main_v0) = _
  after_results
  rfl

/-- The repeated `s` is `s` with a new axis of extent 2 after its rows, reshaped. -/
theorem v2_eq : (V m c main_v2 : S8192x70.Idx → EReal)
    = shapeCast S8192x70 (broadcastInDim S4096x2x70 ![0, 2] bcast_S4096x70_S4096x2x70_0_2 (m ((c : Thread nD τ).loc main_arg1))) shapeCasts_S4096x2x70_S8192x70 := by
  show StableHlo.after hostOps0 (fun b => m (c, b)) (Proc.devRef .tc main_v2) = _
  after_results
  rfl

/-- A[i, q] = adj[i, q / 2, q % 2]. -/
theorem A_eq_adj (i q : ℕ) :
    A m c i q = ext3 (m ((c : Thread nD τ).loc main_arg0) : S4096x4096x2.Idx → EReal) i (q / 2) (q % 2) := by
  unfold A ext2 ext3
  by_cases h : i < 4096 ∧ q < 8192
  · have h' : i < 4096 ∧ q / 2 < 4096 ∧ q % 2 < 2 := ⟨h.1, by omega, by omega⟩
    rw [dif_pos h, dif_pos h', v0_eq]
    exact shapeCast_apply _ _ _ _ (by
      change ((⟨3, ![4096, 4096, 2]⟩ : Shape).rowMajor _).val = ((⟨2, ![4096, 8192]⟩ : Shape).rowMajor _).val
      rw [Shape.rowMajor_val_three, Shape.rowMajor_val_two]
      show (i * 4096 + q / 2) * 2 + q % 2 = i * 8192 + q
      omega)
  · rw [dif_neg h, dif_neg (fun h' => h ⟨h'.1, by omega⟩)]

/-- B[q, d] = s[q / 2, d]. -/
theorem B_eq_s (q d : ℕ) :
    B m c q d = ext2 (m ((c : Thread nD τ).loc main_arg1) : S4096x70.Idx → EReal) (q / 2) d := by
  unfold B ext2
  by_cases h : q < 8192 ∧ d < 70
  · have h' : q / 2 < 4096 ∧ d < 70 := ⟨by omega, h.2⟩
    rw [dif_pos h, dif_pos h', v2_eq]
    refine (shapeCast_apply _ _ _ (ix3 (⟨q / 2, h'.1⟩ : Fin 4096) (⟨q % 2, by omega⟩ : Fin 2) (⟨d, h.2⟩ : Fin 70)) (by
      change ((⟨3, ![4096, 2, 70]⟩ : Shape).rowMajor _).val = ((⟨2, ![8192, 70]⟩ : Shape).rowMajor _).val
      rw [Shape.rowMajor_val_three, Shape.rowMajor_val_two]
      show (q / 2 * 2 + q % 2) * 70 + d = q * 70 + d
      omega)).trans ?_
    exact broadcastInDim_apply _ _ _ _ _ (fun a => by
      match a with
      | ⟨0, _⟩ => rfl
      | ⟨1, _⟩ => rfl)
  · rw [dif_neg h, dif_neg (fun h' => h ⟨by omega, h'.2⟩)]

/-- S is `s`: no host operation writes the argument. -/
theorem S_eq_s (i d : ℕ) : S m c i d = ext2 (m ((c : Thread nD τ).loc main_arg1) : S4096x70.Idx → EReal) i d := by
  unfold S
  rw [V_main_arg1]

/-! ## The two output arrays after the run -/

/-- s_out as the column blocks' sums leave it. -/
def G3 : S4096x70.Idx → EReal := fun i =>
  ∑ b ∈ Finset.range 4, ∑ k ∈ Finset.range 2048, A m c (i 0).val (b * 2048 + k) * B m c (b * 2048 + k) (i 1).val

/-- The per-core partial sums of s_in, over the flattened column axis, as the row blocks' sums leave them. -/
def G4 : S2x8192x70.Idx → EReal := fun i =>
  ∑ b ∈ Finset.range 2, ∑ r ∈ Finset.range 1024, A m c (((i 0).val * 2 + b) * 1024 + r) (i 1).val * S m c (((i 0).val * 2 + b) * 1024 + r) (i 2).val

theorem G3_apply (i : S4096x70.Idx) (a b : ℕ) (h0 : (i 0).val = a) (h1 : (i 1).val = b) :
    G3 m c i = ∑ b' ∈ Finset.range 4, ∑ k ∈ Finset.range 2048, A m c a (b' * 2048 + k) * B m c (b' * 2048 + k) b := by
  unfold G3; rw [h0, h1]

theorem G4_apply (i : S2x8192x70.Idx) (a q d : ℕ) (h0 : (i 0).val = a) (h1 : (i 1).val = q) (h2 : (i 2).val = d) :
    G4 m c i = ∑ b ∈ Finset.range 2, ∑ r ∈ Finset.range 1024, A m c ((a * 2 + b) * 1024 + r) q * S m c ((a * 2 + b) * 1024 + r) d := by
  unfold G4; rw [h0, h1, h2]

/-- What a point after the last column block writes back is its block of 1024 rows of `G3`. -/
theorem flushed3_eq (t : Fin cfg0.N) (hf : (cfg0.win 3).flush t = true) :
    (dats m 0 c).flushed 3 t = ((cfg0.win 3).blk t).view.read (Elt Ideal) (G3 m c) := by
  have h3 : t.val % 4 = 3 := (flush0_3 t).mp hf
  obtain ⟨-, -, -, -, -, -, e0, e1, -⟩ := idx_facts t
  show (cfg0.win 3).cut (grid0.coords t) ((dats m 0 c).after 3 t) = _
  rw [after3]
  refine funext fun (j : S1024x70.Idx) => ?_
  obtain ⟨r, d, rfl⟩ : ∃ (r : Fin 1024) (d : Fin 70), j = ix2 r d := ⟨j 0, j 1, eq_ix2 j⟩
  refine (acc3_eq m c t.val t.isLt r d).trans ?_
  rw [h3]
  show _ = G3 m c (((cfg0.win 3).blk t).view.emb (ix2 r d))
  exact (G3_apply m c _ (1024 * (t.val / 4) + r.val) d.val
    (by show win0_3.index t (0 : Fin 2) * 1024 + 1 * r.val = _; omega)
    (by show win0_3.index t (1 : Fin 2) * 70 + 1 * d.val = _; omega)).symm

/-- What a core's last point writes back is the core's slab of `G4`. -/
theorem flushed4_eq (t : Fin cfg0.N) (hf : (cfg0.win 4).flush t = true) :
    (dats m 0 c).flushed 4 t = ((cfg0.win 4).blk t).view.read (Elt Ideal) (G4 m c) := by
  have h7 : t.val % 8 = 7 := (flush0_4 t).mp hf
  obtain ⟨-, -, -, -, -, -, -, -, e0, e1, e2⟩ := idx_facts t
  show (cfg0.win 4).cut (grid0.coords t) ((dats m 0 c).after 4 t) = _
  rw [after4]
  refine funext fun (j : S1x8192x70.Idx) => ?_
  obtain ⟨z, q, d, rfl⟩ : ∃ (z : Fin 1) (q : Fin 8192) (d : Fin 70), j = ix3 z q d := ⟨j 0, j 1, j 2, eq_ix3 j⟩
  refine (acc4_eq m c t.val t.isLt z q d).trans ?_
  have hq8 := q.isLt
  have hz : z.val = 0 := by omega
  have hc : cnt t.val q.val = 2 := by unfold cnt; rw [if_pos (by omega)]; omega
  rw [hc]
  show _ = G4 m c (((cfg0.win 4).blk t).view.emb (ix3 z q d))
  exact (G4_apply m c _ (t.val / 8) q.val d.val
    (by show win0_4.index t (0 : Fin 3) * 1 + 1 * z.val = _; omega)
    (by show win0_4.index t (1 : Fin 3) * 8192 + 1 * q.val = _; omega)
    (by show win0_4.index t (2 : Fin 3) * 70 + 1 * d.val = _; omega)).symm

/-- An index of s_out is in point `t`'s block iff each coordinate is in the block's range. -/
theorem mem_blk3 (t : Fin cfg0.N) (i : S4096x70.Idx) :
    i ∈ ((cfg0.win 3).blk t).view.set ↔ ∀ a : Fin 2, win0_3.index t a * S1024x70.size a ≤ (i a).val ∧ (i a).val < win0_3.index t a * S1024x70.size a + S1024x70.size a := by
  show i ∈ ((View.whole main_v3_0).slice (win0_3.rect t)).set ↔ _
  rw [View.set_slice_whole, Rect.mem_set_unit]
  exact Iff.rfl

/-- An index of the partial sums is in point `t`'s block iff each coordinate is in the block's range. -/
theorem mem_blk4 (t : Fin cfg0.N) (i : S2x8192x70.Idx) :
    i ∈ ((cfg0.win 4).blk t).view.set ↔ ∀ a : Fin 3, win0_4.index t a * S1x8192x70.size a ≤ (i a).val ∧ (i a).val < win0_4.index t a * S1x8192x70.size a + S1x8192x70.size a := by
  show i ∈ ((View.whole main_v3_1).slice (win0_4.rect t)).set ↔ _
  rw [View.set_slice_whole, Rect.mem_set_unit]
  exact Iff.rfl

/-- Row i of s_out is written back by the last column-block point of its row block: t = 4·(i / 1024) + 3. -/
theorem cover3 (i : S4096x70.Idx) : ∃ t : Fin cfg0.N, (cfg0.win 3).flush t = true ∧ i ∈ ((cfg0.win 3).blk t).view.set := by
  have hi0 : (i 0).val < 4096 := (i 0).isLt
  have hi1 : (i 1).val < 70 := (i 1).isLt
  have hlt : 4 * ((i 0).val / 1024) + 3 < cfg0.N := by rw [show cfg0.N = 16 from N_0]; omega
  refine ⟨⟨4 * ((i 0).val / 1024) + 3, hlt⟩, (flush0_3 _).mpr (by show (4 * ((i 0).val / 1024) + 3) % 4 = 3; omega), ?_⟩
  obtain ⟨-, -, -, -, -, -, e0, e1, -⟩ := idx_facts ⟨4 * ((i 0).val / 1024) + 3, hlt⟩
  have e0' : win0_3.index ⟨4 * ((i 0).val / 1024) + 3, hlt⟩ (0 : Fin 2) = (4 * ((i 0).val / 1024) + 3) / 4 := e0
  rw [mem_blk3]
  intro a
  match a with
  | ⟨0, _⟩ => show win0_3.index _ (0 : Fin 2) * 1024 ≤ (i 0).val ∧ (i 0).val < win0_3.index _ (0 : Fin 2) * 1024 + 1024; omega
  | ⟨1, _⟩ => show win0_3.index _ (1 : Fin 2) * 70 ≤ (i 1).val ∧ (i 1).val < win0_3.index _ (1 : Fin 2) * 70 + 70; omega

/-- Slab `core` of the partial sums is written back by the core's last point: t = 8·core + 7. -/
theorem cover4 (i : S2x8192x70.Idx) : ∃ t : Fin cfg0.N, (cfg0.win 4).flush t = true ∧ i ∈ ((cfg0.win 4).blk t).view.set := by
  have hi0 : (i 0).val < 2 := (i 0).isLt
  have hi1 : (i 1).val < 8192 := (i 1).isLt
  have hi2 : (i 2).val < 70 := (i 2).isLt
  have hlt : 8 * (i 0).val + 7 < cfg0.N := by rw [show cfg0.N = 16 from N_0]; omega
  refine ⟨⟨8 * (i 0).val + 7, hlt⟩, (flush0_4 _).mpr (by show (8 * (i 0).val + 7) % 8 = 7; omega), ?_⟩
  obtain ⟨-, -, -, -, -, -, -, -, e0, e1, e2⟩ := idx_facts ⟨8 * (i 0).val + 7, hlt⟩
  have e0' : win0_4.index ⟨8 * (i 0).val + 7, hlt⟩ (0 : Fin 3) = (8 * (i 0).val + 7) / 8 := e0
  rw [mem_blk4]
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 8192 ≤ (i 1).val ∧ (i 1).val < win0_4.index _ (1 : Fin 3) * 8192 + 8192; omega
  | ⟨2, _⟩ => show win0_4.index _ (2 : Fin 3) * 70 ≤ (i 2).val ∧ (i 2).val < win0_4.index _ (2 : Fin 3) * 70 + 70; omega

/-- The s_out array after the run. -/
theorem final3 : (dats m 0 c).arrAt 3 cfg0.N = G3 m c :=
  (dats m 0 c).arrAt_eq_of_cover 3 (G3 m c) (fun t hf => flushed3_eq m c t hf) (cover3)

/-- The partial-sums array after the run. -/
theorem final4 : (dats m 0 c).arrAt 4 cfg0.N = G4 m c :=
  (dats m 0 c).arrAt_eq_of_cover 4 (G4 m c) (fun t hf => flushed4_eq m c t hf) (cover4)

/-! ## The host operations after the region -/

/-- The s_in result is the two sums of the host tail applied to the partial-sums array. -/
theorem tail6 : Pipeline.afterTail₀ cfgs (dats m) 0 (V0 m) [hostOps1] c main_v6
    = Host.reduceAdd (F := Ideal) (shapeCast S4096x2x70 (Host.reduceAdd (F := Ideal) (G4 m c) (constant (F := Ideal) S_ .f32 0x00000000#32) reducesTo_S2x8192x70_S8192x70_d0 h_S_) shapeCasts_S8192x70_S4096x2x70)
        (constant (F := Ideal) S_ .f32 0x00000000#32) reducesTo_S4096x2x70_S4096x70_d1 h_S_ := by
  unfold Pipeline.afterTail₀
  show StableHlo.after hostOps1 _ (Proc.devRef .tc main_v6) = _
  after_results
  have e := (Pipeline.withArrays_arr spec0 launch0.win.arr_inj c (V0 m c) (fun w => (dats m 0 c).arrAt w (cfgs 0).N) 4).trans (final4 m c)
  rw [show Pipeline.withArrays (cfgs 0).spec c (V0 m c) (fun w => (dats m 0 c).arrAt w (cfgs 0).N) (Proc.devRef .tc main_v3_1) = G4 m c from e]
  rfl

/-- The sum over the two cores, at (q, d). -/
theorem reduce_cores (x : S2x8192x70.Idx → EReal) (q : Fin 8192) (d : Fin 70) :
    Host.reduceAdd (F := Ideal) x (constant (F := Ideal) S_ .f32 0x00000000#32) reducesTo_S2x8192x70_S8192x70_d0 h_S_ (ix2 q d)
      = ∑ co : Fin 2, x (ix3 co q d) := by
  simp only [Host.reduceAdd, Ideal.hostReduceAdd_def]
  rw [Ideal.hostReduceAdd_single reducesTo_S2x8192x70_S8192x70_d0 (by decide)]
  refine (congrArg (· + _) (show (constant (F := Ideal) S_ .f32 0x00000000#32) (Shape.Idx.first h_S_) = (0 : EReal) from Ideal.ofBits_zero_f32)).trans ?_
  rw [zero_add]
  refine Finset.sum_congr rfl fun k _ => ?_
  exact congrArg x (funext fun a => Fin.ext (by match a with | ⟨0, _⟩ => rfl | ⟨1, _⟩ => rfl | ⟨2, _⟩ => rfl))

/-- The sum over the two channels, at (j, d). -/
theorem reduce_pairs (x : S4096x2x70.Idx → EReal) (j : Fin 4096) (d : Fin 70) :
    Host.reduceAdd (F := Ideal) x (constant (F := Ideal) S_ .f32 0x00000000#32) reducesTo_S4096x2x70_S4096x70_d1 h_S_ (ix2 j d)
      = ∑ k : Fin 2, x (ix3 j k d) := by
  simp only [Host.reduceAdd, Ideal.hostReduceAdd_def]
  rw [Ideal.hostReduceAdd_single reducesTo_S4096x2x70_S4096x70_d1 (by decide)]
  refine (congrArg (· + _) (show (constant (F := Ideal) S_ .f32 0x00000000#32) (Shape.Idx.first h_S_) = (0 : EReal) from Ideal.ofBits_zero_f32)).trans ?_
  rw [zero_add]
  refine Finset.sum_congr rfl fun k _ => ?_
  exact congrArg x (funext fun a => Fin.ext (by match a with | ⟨0, _⟩ => rfl | ⟨1, _⟩ => rfl | ⟨2, _⟩ => rfl))

/-! ## The two results are the specification's -/

/-- The kernel's s_out is the specification's: the four column blocks of 2048 are the flattened axis of 8192, which is
    the pairs (j, k). -/
theorem sOut_eq : G3 m c = Cert.Spec.sOut (m ((c : Thread nD τ).loc main_arg0)) (m ((c : Thread nD τ).loc main_arg1)) := by
  refine funext fun (i : S4096x70.Idx) => ?_
  obtain ⟨r, d, rfl⟩ : ∃ (r : Fin 4096) (d : Fin 70), i = ix2 r d := ⟨i 0, i 1, eq_ix2 i⟩
  refine (G3_apply m c _ r.val d.val rfl rfl).trans ?_
  refine (Cert.RefSide.sum_cols_tiled (fun q => A m c r.val q * B m c q d.val)).trans ?_
  refine Eq.trans ?_ (Cert.RefSide.sOut_nat _ _ r d).symm
  exact Finset.sum_congr rfl fun q _ => by rw [A_eq_adj, B_eq_s]

/-- The two cores' slabs at column q add up to the whole row axis: Σ_{i < 4096} A[i, q] · S[i, d]. -/
theorem cores_sum (q : Fin 8192) (d : Fin 70) :
    ∑ co : Fin 2, G4 m c (ix3 co q d) = ∑ i ∈ Finset.range 4096, A m c i q.val * S m c i d.val := by
  refine Eq.trans ?_ (Cert.RefSide.sum_rows_tiled (fun i => A m c i q.val * S m c i d.val))
  rw [Finset.sum_range (fun co => ∑ b ∈ Finset.range 2, ∑ r ∈ Finset.range 1024, A m c ((co * 2 + b) * 1024 + r) q.val * S m c ((co * 2 + b) * 1024 + r) d.val)]
  exact Finset.sum_congr rfl fun co _ => G4_apply m c _ co.val q.val d.val rfl rfl rfl

/-- The kernel's s_in is the specification's: per channel k, the two cores' two row blocks of 1024 are the row axis of
    4096. -/
theorem sIn_eq : Pipeline.afterTail₀ cfgs (dats m) 0 (V0 m) [hostOps1] c main_v6
    = Cert.Spec.sIn (m ((c : Thread nD τ).loc main_arg0)) (m ((c : Thread nD τ).loc main_arg1)) := by
  rw [tail6]
  refine funext fun (i : S4096x70.Idx) => ?_
  obtain ⟨j, d, rfl⟩ : ∃ (j : Fin 4096) (d : Fin 70), i = ix2 j d := ⟨i 0, i 1, eq_ix2 i⟩
  rw [reduce_pairs]
  refine Eq.trans ?_ (Cert.RefSide.sIn_nat _ _ j d).symm
  rw [Finset.sum_range (fun k => ∑ i ∈ Finset.range 4096, ext3 (m ((c : Thread nD τ).loc main_arg0) : S4096x4096x2.Idx → EReal) i j.val k * ext2 (m ((c : Thread nD τ).loc main_arg1) : S4096x70.Idx → EReal) i d.val)]
  refine Finset.sum_congr rfl fun k _ => ?_
  have hk := k.isLt
  have hj := j.isLt
  have hq : j.val * 2 + k.val < 8192 := by omega
  refine (shapeCast_apply _ _ _ (ix2 (⟨j.val * 2 + k.val, hq⟩ : Fin 8192) d) (by
    change ((⟨2, ![8192, 70]⟩ : Shape).rowMajor _).val = ((⟨3, ![4096, 2, 70]⟩ : Shape).rowMajor _).val
    rw [Shape.rowMajor_val_three, Shape.rowMajor_val_two]
    rfl)).trans ?_
  rw [reduce_cores, cores_sum]
  refine Finset.sum_congr rfl fun i _ => ?_
  have e1 : (j.val * 2 + k.val) / 2 = j.val := by omega
  have e2 : (j.val * 2 + k.val) % 2 = k.val := by omega
  rw [A_eq_adj, S_eq_s]
  dsimp only
  rw [e1, e2]

/-! ## The kernel's run, read -/

/-- Every weakly fair execution of the idealized kernel's @main terminates without a fault; it ends with its first result
    at the specification's s_in, its second at the specification's s_out, and both arguments as launched. -/
theorem kernel_run (ρ : Dev nD → PrngReg) : θ_run defs (onTc (τ := τ) (main (F := Ideal))) ⟨m, fun _ => 0, ρ⟩ (fun r => ∀ c : Dev nD,
      r.2.mem ((c.tc : Thread nD τ).loc main_v6) = Cert.Spec.sIn (m ((c.tc : Thread nD τ).loc main_arg0)) (m ((c.tc : Thread nD τ).loc main_arg1))
      ∧ r.2.mem ((c.tc : Thread nD τ).loc main_v3_0) = Cert.Spec.sOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v6 (Pipeline.mem_restRefs_of main_v6 (by decide) (by decide))).trans (sIn_eq m c),
     ((h c).1 3).trans ((final3 m c).trans (sOut_eq m c)),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c)))⟩)
    (run_main m ρ)

end Cert.KernelIdeal.Val

end
-- ==== Proof.RefFinite.lean ====
/-
  From the precondition to real entries.
  The precondition says that one bit is set: the conjunction of two "all" tests, one per argument
  array, each the and-reduction over every index of the comparison |x| < +∞. A set conjunction has
  both tests set; an and-reduction over all axes that comes out set met a set bit at every index; and
  on the extended reals |x| = max x (-x) lies strictly below +∞ exactly when x is neither infinity,
  that is, when x is a real number. So under the precondition every entry of both arrays is real.
-/
import proofs.«170085_j76536317215120_2_alg».proof.Pre_finite_inputs
import Idealize.ShloMosaic.PureOps.Ideal
import Idealize.ShloMosaic.Lib.ReduceAll
import Idealize.ShloMosaic.Lib.ValueIdx

noncomputable section

namespace Cert.RefSide

open Idealize.ShloMosaic Idealize.ShloMosaic.ValueIdx

/-- The scalar shape has one index. -/
instance subsingleton_scalar_idx : Subsingleton Cert.Pre_finite_inputs.S_.Idx :=
  ⟨fun a b => funext fun d => d.elim0⟩

/-- The pattern with all exponent bits set and no fraction bit denotes +∞. -/
theorem ofBits_inf : Ideal.ofBits .f32 0x7F800000#32 = (⊤ : EReal) := by
  simp [Ideal.ofBits, Ideal.ieee]

/-- An extended real whose absolute value max x (-x) compares strictly below +∞ is a real number:
    at either infinity the maximum is +∞ itself. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- Under the precondition (its one bit is set) every entry of `adj` and every entry of `s` is a real number. -/
theorem finite_of_pre [Cert.Pre_finite_inputs.Facts]
    (adj : FVec Ideal Cert.Pre_finite_inputs.S4096x4096x2 .f32) (s : FVec Ideal Cert.Pre_finite_inputs.S4096x70 .f32)
    (h : Cert.Pre_finite_inputs.fn (F := Ideal) adj s = (fun _ => 1#1)) :
    (∀ i, ∃ r : ℝ, adj i = (r : EReal)) ∧ (∀ i, ∃ r : ℝ, s i = (r : EReal)) := by
  have h0 := congrFun h ix0
  dsimp only [Cert.Pre_finite_inputs.fn] at h0
  obtain ⟨h1, h2⟩ := IntOp.andi_eq_one.1 h0
  exact ⟨fun i => real_of_abs_lt_inf (adj i) (Host.reduce_andi_all _ _ _ _ _ h1 i),
    fun i => real_of_abs_lt_inf (s i) (Host.reduce_andi_all _ _ _ _ _ h2 i)⟩

end Cert.RefSide

end
-- ==== Proof.RefAlgebra.lean ====
/-
  The one law the reference side needs, on the extended reals.
  The reference adds the two channel entries of `adj` first (starting from the initial value zero) and
  multiplies the sum by the entry of `s`; the specification multiplies each channel entry by the entry
  of `s` and adds the products. That is distributivity, (0 + (a0 + a1)) · b = a0 · b + a1 · b, which
  fails on the extended reals at infinities of opposite sign and holds for real numbers.
-/
import Mathlib.Data.EReal.Operations
import Mathlib.Tactic.Ring

namespace Cert.RefSide

/-- Distributivity for real entries, with the zero the sum starts from:
    (0 + (a0 + a1)) · b = a0 · b + a1 · b. -/
theorem real_distrib (a0 a1 b : EReal) (h0 : ∃ r : ℝ, a0 = (r : EReal)) (h1 : ∃ r : ℝ, a1 = (r : EReal))
    (hb : ∃ r : ℝ, b = (r : EReal)) : (0 + (a0 + a1)) * b = a0 * b + a1 * b := by
  obtain ⟨x0, rfl⟩ := h0
  obtain ⟨x1, rfl⟩ := h1
  obtain ⟨y, rfl⟩ := hb
  rw [zero_add, ← EReal.coe_add, ← EReal.coe_mul, ← EReal.coe_mul, ← EReal.coe_mul, ← EReal.coe_add]
  exact congrArg _ (by ring)

end Cert.RefSide
-- ==== Proof.RefValue.lean ====
/-
  The reference's two results, index by index, are the specification's sums.
  The reference first sums `adj` over its channel axis, a[i, j] = 0 + Σ_c adj[i, j, c], and then
  contracts a with `s`: s_in[j, d] = Σ_i a[i, j] · s[i, d] and s_out[i, d] = Σ_j a[i, j] · s[j, d].
  The specification has every product adj · s alone under the sums. Where all entries are real numbers
  the two agree term by term by distributivity; for s_in the two summations of the specification are
  exchanged as well, which holds for any sums.
-/
import proofs.«170085_j76536317215120_2_alg».proof.Proof.Gen.ReferenceIdeal.Read
import proofs.«170085_j76536317215120_2_alg».proof.Proof.Spec
import proofs.«170085_j76536317215120_2_alg».proof.Proof.RefAlgebra

noncomputable section

open scoped BigOperators

namespace Cert.RefSide

open Cert.ReferenceIdeal Cert.ReferenceIdeal.Gen Idealize.ShloMosaic Idealize.ShloMosaic.ValueIdx Cert.Spec

/-- The value the channel sum starts from is the real number zero. -/
theorem start_zero (j : S_.Idx) : Read.val_main_cst (F := Ideal) j = 0 :=
  Ideal.ofBits_zero_f32

/-- s_in: the reference's first result is Σ_c Σ_r adj[r, j, c] · s[r, d] when every entry is real. -/
theorem ref_sIn (adj : SA.Idx → EReal) (s : SS.Idx → EReal)
    (hadj : ∀ i, ∃ r : ℝ, adj i = (r : EReal)) (hs : ∀ i, ∃ r : ℝ, s i = (r : EReal)) :
    Read.val_main_v1 (F := Ideal) adj s = Cert.Spec.sIn adj s := by
  funext i
  rw [Read.val_main_v1_apply,
    show Cert.Spec.sIn adj s i = ∑ r : Fin 4096, ∑ c : Fin 2, adj (ix3 r (i 0) c) * s (ix2 r (i 1)) from Finset.sum_comm]
  refine Finset.sum_congr rfl fun r _ => ?_
  have e0 : ∀ c : Fin 2, Read.idx_main_v0 (Read.lidx_main_v1 i r) c = ix3 r (i 0) c := fun c =>
    funext fun a => Fin.ext (by match a with | ⟨0, _⟩ => rfl | ⟨1, _⟩ => rfl | ⟨2, _⟩ => rfl)
  have e1 : Read.ridx_main_v1 i r = ix2 r (i 1) :=
    funext fun a => Fin.ext (by match a with | ⟨0, _⟩ => rfl | ⟨1, _⟩ => rfl)
  rw [Read.val_main_v0_apply, Fin.sum_univ_two, Fin.sum_univ_two, e0, e0, e1, start_zero]
  exact real_distrib _ _ _ (hadj _) (hadj _) (hs _)

/-- s_out: the reference's second result is Σ_j Σ_c adj[i, j, c] · s[j, d] when every entry is real. -/
theorem ref_sOut (adj : SA.Idx → EReal) (s : SS.Idx → EReal)
    (hadj : ∀ i, ∃ r : ℝ, adj i = (r : EReal)) (hs : ∀ i, ∃ r : ℝ, s i = (r : EReal)) :
    Read.val_main_v2 (F := Ideal) adj s = Cert.Spec.sOut adj s := by
  funext i
  rw [Read.val_main_v2_apply]
  show _ = ∑ j : Fin 4096, ∑ c : Fin 2, adj (ix3 (i 0) j c) * s (ix2 j (i 1))
  refine Finset.sum_congr rfl fun j _ => ?_
  have e0 : ∀ c : Fin 2, Read.idx_main_v0 (Read.lidx_main_v2 i j) c = ix3 (i 0) j c := fun c =>
    funext fun a => Fin.ext (by match a with | ⟨0, _⟩ => rfl | ⟨1, _⟩ => rfl | ⟨2, _⟩ => rfl)
  have e1 : Read.ridx_main_v2 i j = ix2 j (i 1) :=
    funext fun a => Fin.ext (by match a with | ⟨0, _⟩ => rfl | ⟨1, _⟩ => rfl)
  rw [Read.val_main_v0_apply, Fin.sum_univ_two, Fin.sum_univ_two, e0, e0, e1, start_zero]
  exact real_distrib _ _ _ (hadj _) (hadj _) (hs _)

end Cert.RefSide

end
-- ==== Proof.RefRun.lean ====
/-
  The reference's run ends at the specification.
  Every weakly fair execution of the reference terminates with its first result at the contraction of
  the channel sum of `adj` with `s` over the first axis and its second result at the contraction over
  the second axis, the arguments unchanged. Where every entry of the arguments is a real number those
  two terms are the specification's s_in and s_out; the precondition gives exactly that.
-/
import proofs.«170085_j76536317215120_2_alg».proof.Defs
import proofs.«170085_j76536317215120_2_alg».proof.Proof.Gen.Pre_finite_inputs
import proofs.«170085_j76536317215120_2_alg».proof.Proof.Gen.ReferenceIdeal.Run
import proofs.«170085_j76536317215120_2_alg».proof.Proof.RefFinite
import proofs.«170085_j76536317215120_2_alg».proof.Proof.RefValue

noncomputable section

namespace Cert.RefSide

open Cert.ReferenceIdeal Cert.ReferenceIdeal.Gen Idealize.ShloMosaic Idealize.ShloMosaic.TcCoe Idealize.SL.Sem

/-- From a memory whose two argument arrays hold real numbers only, on every device: the reference terminates with
    its first result the specification's s_in, its second the specification's s_out, both of the arguments as the
    memory holds them, and the arguments unchanged. -/
theorem ref_run_of_real (m' : (ℓ : Loc nD τ sig) → Buf (Elt Ideal) ℓ) (ρ' : Dev nD → PrngReg)
    (hreal : ∀ c : Dev nD,
      (∀ i, ∃ r : ℝ, (m' ((c.tc : Thread nD τ).loc main_arg0) : Cert.Spec.SA.Idx → EReal) i = (r : EReal))
      ∧ (∀ i, ∃ r : ℝ, (m' ((c.tc : Thread nD τ).loc main_arg1) : Cert.Spec.SS.Idx → EReal) i = (r : EReal))) :
    θ_run (defs (F := Ideal)) (onTc (τ := τ) (main (F := Ideal))) ⟨m', fun _ => 0, ρ'⟩ (fun r => ∀ c : Dev nD,
      r.2.mem ((c.tc : Thread nD τ).loc main_v1) = Cert.Spec.sIn (m' ((c.tc : Thread nD τ).loc main_arg0)) (m' ((c.tc : Thread nD τ).loc main_arg1))
      ∧ r.2.mem ((c.tc : Thread nD τ).loc main_v2) = Cert.Spec.sOut (m' ((c.tc : Thread nD τ).loc main_arg0)) (m' ((c.tc : Thread nD τ).loc main_arg1))
      ∧ r.2.mem ((c.tc : Thread nD τ).loc main_arg0) = m' ((c.tc : Thread nD τ).loc main_arg0)
      ∧ r.2.mem ((c.tc : Thread nD τ).loc main_arg1) = m' ((c.tc : Thread nD τ).loc main_arg1)) :=
  (θ_run defs _ _).mono (fun _ h c =>
      ⟨(h c).1.trans ((Read.val_main_v1_eq _ _).trans (ref_sIn _ _ (hreal c).1 (hreal c).2)),
        (h c).2.1.trans ((Read.val_main_v2_eq _ _).trans (ref_sOut _ _ (hreal c).1 (hreal c).2)),
        (h c).2.2⟩)
    (Cert.ReferenceIdeal.Value.run (F := Ideal) m' ρ')

/-- The same from the precondition, which makes every entry of both arguments real. -/
theorem ref_run (m' : (ℓ : Loc nD τ sig) → Buf (Elt Ideal) ℓ) (ρ' : Dev nD → PrngReg)
    (hpre : Cert.Pre_ReferenceIdeal m') :
    θ_run (defs (F := Ideal)) (onTc (τ := τ) (main (F := Ideal))) ⟨m', fun _ => 0, ρ'⟩ (fun r => ∀ c : Dev nD,
      r.2.mem ((c.tc : Thread nD τ).loc main_v1) = Cert.Spec.sIn (m' ((c.tc : Thread nD τ).loc main_arg0)) (m' ((c.tc : Thread nD τ).loc main_arg1))
      ∧ r.2.mem ((c.tc : Thread nD τ).loc main_v2) = Cert.Spec.sOut (m' ((c.tc : Thread nD τ).loc main_arg0)) (m' ((c.tc : Thread nD τ).loc main_arg1))
      ∧ r.2.mem ((c.tc : Thread nD τ).loc main_arg0) = m' ((c.tc : Thread nD τ).loc main_arg0)
      ∧ r.2.mem ((c.tc : Thread nD τ).loc main_arg1) = m' ((c.tc : Thread nD τ).loc main_arg1)) :=
  ref_run_of_real m' ρ' fun c => finite_of_pre _ _ (hpre c)

/-- The reference runs and leaves its arguments unchanged: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

end Cert.RefSide

end
-- ==== Proof.lean ====
/-
  The kernel against its reference, on the extended reals.
  With adj : [4096, 4096, 2] and s : [4096, 70], both programs compute
      s_in [j, d] = Σ_i Σ_k adj[i, j, k] · s[i, d]          s_out[i, d] = Σ_j Σ_k adj[i, j, k] · s[j, d].
  The reference sums adj over its channel axis k first and then contracts with s. The kernel folds the channel axis into
  the contraction: it flattens adj to [4096, 8192] (column 2j + k), repeats each row of s twice, and runs over a grid
  (core, ii, c) of 2 · 2 · 4 points; a point multiplies one [1024, 2048] block of the flattened adj with the matching rows
  of the repeated s (adding into the row block's s_out accumulator, zeroed at c = 0) and its transpose with the matching
  rows of s (adding into a per-core accumulator over the flattened column axis, zeroed at ii = 0, c = 0); afterwards the
  host adds the two cores' accumulators and then the rows 2j and 2j + 1.
  * The frames (both kernel programs): each point's run is one of three cases of the two conditions; what the two
    accumulators hold after each point is a recursion on the point, and wherever a staging buffer holds unnamed contents
    the body zeroes it before reading it (Step*, Runs*, Data*, written once for any float instance).
  * The values at the ideal instance: the accumulators in closed form by induction on the point (PayIdeal, AccIdeal);
    the written-back blocks tile the two output arrays; the host tail and a regrouping of the tiled sums — sums only —
    give the specification (FinalIdeal, Spec, NatForm, RefRegroup).
  * The reference is the specification where the entries are real numbers, by distributivity of · over the channel sum
    (0 + (a0 + a1)) · b = a0 · b + a1 · b, which fails at infinities of opposite sign; the precondition makes every entry
    real (RefAlgebra, RefFinite, RefValue, RefRun). This is the one place finiteness is used.
  The idealization rewrote no operation, so that conjunct is trivial.
-/
import proofs.«170085_j76536317215120_2_alg».proof.Defs
import proofs.«170085_j76536317215120_2_alg».proof.Proof.Gen.Kernel
import proofs.«170085_j76536317215120_2_alg».proof.Proof.Gen.KernelIdeal
import proofs.«170085_j76536317215120_2_alg».proof.Proof.Gen.ReferenceIdeal
import proofs.«170085_j76536317215120_2_alg».proof.Proof.Gen.Pre_finite_inputs
import proofs.«170085_j76536317215120_2_alg».proof.Proof.DataBits
import proofs.«170085_j76536317215120_2_alg».proof.Proof.FinalIdeal
import proofs.«170085_j76536317215120_2_alg».proof.Proof.RefRun
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Body.frame (F := Bits) m ρ

/-- The idealized kernel runs and leaves its arguments unchanged. -/
theorem frame_ki : Cert.frame_KernelIdeal := fun m ρ _ => Cert.KernelIdeal.Body.frame (F := Ideal) m ρ

/-- From memories agreeing on the arguments, under the precondition, both idealized programs end at the specification's
    s_in and s_out of the kernel's arguments: the kernel always, the reference because the precondition makes every entry
    real. -/
theorem algebraic : Cert.algebraic_KernelIdeal_ReferenceIdeal := by
  intro m ρ m' ρ' hpre hagree
  refine ⟨fun c => Cert.Spec.sIn (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.Spec.sOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.Val.kernel_run m ρ, ?_⟩
  have hreal : ∀ c : Dev Cert.ReferenceIdeal.nD,
      (∀ i, ∃ r : ℝ, (m' ((c.tc : Thread Cert.ReferenceIdeal.nD Cert.ReferenceIdeal.τ).loc Cert.ReferenceIdeal.main_arg0) : Cert.Spec.SA.Idx → EReal) i = (r : EReal))
      ∧ (∀ i, ∃ r : ℝ, (m' ((c.tc : Thread Cert.ReferenceIdeal.nD Cert.ReferenceIdeal.τ).loc Cert.ReferenceIdeal.main_arg1) : Cert.Spec.SS.Idx → EReal) i = (r : EReal)) := fun c => by
    rw [(hagree c).1, (hagree c).2]
    exact Cert.RefSide.finite_of_pre _ _ (hpre c)
  refine (θ_run Cert.ReferenceIdeal.defs _ _).mono (fun _ h c => ?_) (Cert.RefSide.ref_run_of_real m' ρ' hreal)
  obtain ⟨h1, h2, h3, h4⟩ := h c
  rw [(hagree c).1, (hagree c).2] at h1 h2
  exact ⟨h1, h2, h3, h4⟩

theorem claim : Cert.Claim := ⟨Cert.Kernel.Gen.facts, Cert.KernelIdeal.Gen.facts, Cert.ReferenceIdeal.Gen.facts, Cert.Pre_finite_inputs.Gen.facts,
  frame_k, frame_ki, Cert.RefSide.frame_ri, trivial, algebraic⟩

end Cert.Proof

end
